-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x300 : Shape := ⟨2, ![300000, 300]⟩
abbrev S720000 : Shape := ⟨1, ![720000]⟩
abbrev S144000 : Shape := ⟨1, ![144000]⟩
abbrev S49152 : Shape := ⟨1, ![49152]⟩
abbrev S300x512 : Shape := ⟨2, ![300, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩

class Facts : Prop where
  bcast_S_S300000x300 : S_.BroadcastsInDim S300000x300 (![] : Fin 0 → Fin S300000x300.rank)
  reducesTo_S300000x300_S_d0_1 : S300000x300.ReducesTo [0, 1] S_
  h_S_ : 0 < S_.numel
  bcast_S_S300x512 : S_.BroadcastsInDim S300x512 (![] : Fin 0 → Fin S300x512.rank)
  reducesTo_S300x512_S_d0_1 : S300x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg13 : FVec F S512x256 .f32) (main_arg14 : FVec F S512x256 .f32) (main_arg15 : FVec F S256 .f32) (main_v33 : IVec S_ 1) : IVec S_ 1 :=
  let main_v34 : FVec F S512x256 .f32 := Host.absf main_arg13
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512x256 .f32 := Host.absf main_arg14
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg15
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg10 : FVec F S512x512 .f32) (main_arg11 : FVec F S512x512 .f32) (main_arg12 : FVec F S512 .f32) (main_arg13 : FVec F S512x256 .f32) (main_arg14 : FVec F S512x256 .f32) (main_arg15 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg10
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg11
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg12
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg13 main_arg14 main_arg15 main_v33

def fn {F : FTy → Type} [FloatOps F] (main_arg0 : FVec F S300000x300 .f32) (main_arg1 : IVec S720000 32) (main_arg2 : IVec S720000 32) (main_arg3 : IVec S144000 32) (main_arg4 : IVec S144000 32) (main_arg5 : IVec S49152 32) (main_arg6 : IVec S49152 32) (main_arg7 : FVec F S300x512 .f32) (main_arg8 : FVec F S300x512 .f32) (main_arg9 : FVec F S512 .f32) (main_arg10 : FVec F S512x512 .f32) (main_arg11 : FVec F S512x512 .f32) (main_arg12 : FVec F S512 .f32) (main_arg13 : FVec F S512x256 .f32) (main_arg14 : FVec F S512x256 .f32) (main_arg15 : FVec F S256 .f32) : IVec S_ 1 :=
  let main_v0 : FVec F S300000x300 .f32 := Host.absf main_arg0
  let main_cst : FVec F S_ .f32 := constant S_ .f32 0x7F800000#32
  let main_v1 : FVec F S300000x300 .f32 := broadcastInDim S300000x300 ![] bcast_S_S300000x300 main_cst
  let main_v2 : IVec S300000x300 1 := cmpf .olt main_v0 main_v1
  let main_c : IVec S_ 1 := constantI S_ 1 1#1
  let main_v3 : IVec S_ 1 := (fun x v => Host.reduce IntOp.andi x v reducesTo_S300000x300_S_d0_1 h_S_) main_v2 main_c
  let main_v4 : FVec F S300x512 .f32 := Host.absf main_arg7
  let main_cst_0 : FVec F S_ .f32 := constant S_ .f32 0x7F800000#32
  let main_v5 : FVec F S300x512 .f32 := broadcastInDim S300x512 ![] bcast_S_S300x512 main_cst_0
  let main_v6 : IVec S300x512 1 := cmpf .olt main_v4 main_v5
  let main_c_1 : IVec S_ 1 := constantI S_ 1 1#1
  let main_v7 : IVec S_ 1 := (fun x v => Host.reduce IntOp.andi x v reducesTo_S300x512_S_d0_1 h_S_) main_v6 main_c_1
  let main_v8 : IVec S_ 1 := andi main_v3 main_v7
  let main_v9 : FVec F S300x512 .f32 := Host.absf main_arg8
  let main_cst_2 : FVec F S_ .f32 := constant S_ .f32 0x7F800000#32
  let main_v10 : FVec F S300x512 .f32 := broadcastInDim S300x512 ![] bcast_S_S300x512 main_cst_2
  let main_v11 : IVec S300x512 1 := cmpf .olt main_v9 main_v10
  let main_c_3 : IVec S_ 1 := constantI S_ 1 1#1
  let main_v12 : IVec S_ 1 := (fun x v => Host.reduce IntOp.andi x v reducesTo_S300x512_S_d0_1 h_S_) main_v11 main_c_3
  let main_v13 : IVec S_ 1 := andi main_v8 main_v12
  let main_v14 : FVec F S512 .f32 := Host.absf main_arg9
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg10 main_arg11 main_arg12 main_arg13 main_arg14 main_arg15 main_v13 main_v16
-- ==== Kernel.lean ====
abbrev S300000x300 : Shape := ⟨2, ![300000, 300]⟩
abbrev S720000 : Shape := ⟨1, ![720000]⟩
abbrev S144000 : Shape := ⟨1, ![144000]⟩
abbrev S49152 : Shape := ⟨1, ![49152]⟩
abbrev S300x512 : Shape := ⟨2, ![300, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S60000x300 : Shape := ⟨2, ![60000, 300]⟩
abbrev S_ : Shape := ⟨0, ![]⟩
abbrev S720000x1 : Shape := ⟨2, ![720000, 1]⟩
abbrev S720000x300 : Shape := ⟨2, ![720000, 300]⟩
abbrev S60000 : Shape := ⟨1, ![60000]⟩
abbrev S60000x1 : Shape := ⟨2, ![60000, 1]⟩
abbrev S1x512 : Shape := ⟨2, ![1, 512]⟩
abbrev S60000x512 : Shape := ⟨2, ![60000, 512]⟩
abbrev S2000x300 : Shape := ⟨2, ![2000, 300]⟩
abbrev S2000x512 : Shape := ⟨2, ![2000, 512]⟩
abbrev S12000x512 : Shape := ⟨2, ![12000, 512]⟩
abbrev S144000x1 : Shape := ⟨2, ![144000, 1]⟩
abbrev S144000x512 : Shape := ⟨2, ![144000, 512]⟩
abbrev S12000 : Shape := ⟨1, ![12000]⟩
abbrev S12000x1 : Shape := ⟨2, ![12000, 1]⟩
abbrev S1000x512 : Shape := ⟨2, ![1000, 512]⟩
abbrev S4096x512 : Shape := ⟨2, ![4096, 512]⟩
abbrev S49152x1 : Shape := ⟨2, ![49152, 1]⟩
abbrev S49152x512 : Shape := ⟨2, ![49152, 512]⟩
abbrev S4096 : Shape := ⟨1, ![4096]⟩
abbrev S4096x1 : Shape := ⟨2, ![4096, 1]⟩
abbrev S1x256 : Shape := ⟨2, ![1, 256]⟩
abbrev S4096x256 : Shape := ⟨2, ![4096, 256]⟩
abbrev S1024x512 : Shape := ⟨2, ![1024, 512]⟩
abbrev S1024x256 : Shape := ⟨2, ![1024, 256]⟩

abbrev nBuf : Space → Nat
  | .hbm => 100
  | .vmem => 27
  | .smem => 0
  | _ => 0

abbrev bufTy : (tb : Table) → Fin (tcTables nBuf tb) → BufTy
  | .hbm, ⟨0, _⟩ => ⟨S300000x300, .f32⟩
  | .hbm, ⟨1, _⟩ => ⟨S720000, .i32⟩
  | .hbm, ⟨2, _⟩ => ⟨S720000, .i32⟩
  | .hbm, ⟨3, _⟩ => ⟨S144000, .i32⟩
  | .hbm, ⟨4, _⟩ => ⟨S144000, .i32⟩
  | .hbm, ⟨5, _⟩ => ⟨S49152, .i32⟩
  | .hbm, ⟨6, _⟩ => ⟨S49152, .i32⟩
  | .hbm, ⟨7, _⟩ => ⟨S300x512, .f32⟩
  | .hbm, ⟨8, _⟩ => ⟨S300x512, .f32⟩
  | .hbm, ⟨9, _⟩ => ⟨S512, .f32⟩
  | .hbm, ⟨10, _⟩ => ⟨S512x512, .f32⟩
  | .hbm, ⟨11, _⟩ => ⟨S512x512, .f32⟩
  | .hbm, ⟨12, _⟩ => ⟨S512, .f32⟩
  | .hbm, ⟨13, _⟩ => ⟨S512x256, .f32⟩
  | .hbm, ⟨14, _⟩ => ⟨S512x256, .f32⟩
  | .hbm, ⟨15, _⟩ => ⟨S256, .f32⟩
  | .hbm, ⟨16, _⟩ => ⟨S60000x300, .f32⟩
  | .hbm, ⟨17, _⟩ => ⟨S_, .i32⟩
  | .hbm, ⟨18, _⟩ => ⟨S720000, .i32⟩
  | .hbm, ⟨19, _⟩ => ⟨S720000, .i1⟩
  | .hbm, ⟨20, _⟩ => ⟨S_, .i32⟩
  | .hbm, ⟨21, _⟩ => ⟨S720000, .i32⟩
  | .hbm, ⟨22, _⟩ => ⟨S720000, .i32⟩
  | .hbm, ⟨23, _⟩ => ⟨S720000, .i32⟩
  | .hbm, ⟨24, _⟩ => ⟨S720000x1, .i32⟩
  | .hbm, ⟨25, _⟩ => ⟨S720000x300, .f32⟩
  | .hbm, ⟨26, _⟩ => ⟨S_, .f32⟩
  | .hbm, ⟨27, _⟩ => ⟨S60000x300, .f32⟩
  | .hbm, ⟨28, _⟩ => ⟨S720000x1, .i32⟩
  | .hbm, ⟨29, _⟩ => ⟨S60000x300, .f32⟩
  | .hbm, ⟨30, _⟩ => ⟨S_, .f32⟩
  | .hbm, ⟨31, _⟩ => ⟨S720000, .f32⟩
  | .hbm, ⟨32, _⟩ => ⟨S_, .f32⟩
  | .hbm, ⟨33, _⟩ => ⟨S60000, .f32⟩
  | .hbm, ⟨34, _⟩ => ⟨S720000x1, .i32⟩
  | .hbm, ⟨35, _⟩ => ⟨S60000, .f32⟩
  | .hbm, ⟨36, _⟩ => ⟨S_, .f32⟩
  | .hbm, ⟨37, _⟩ => ⟨S60000, .f32⟩
  | .hbm, ⟨38, _⟩ => ⟨S60000, .f32⟩
  | .hbm, ⟨39, _⟩ => ⟨S60000x1, .f32⟩
  | .hbm, ⟨40, _⟩ => ⟨S60000x300, .f32⟩
  | .hbm, ⟨41, _⟩ => ⟨S60000x300, .f32⟩
  | .hbm, ⟨42, _⟩ => ⟨S1x512, .f32⟩
  | .hbm, ⟨43, _⟩ => ⟨S60000x512, .f32⟩
  | .hbm, ⟨44, _⟩ => ⟨S12000x512, .f32⟩
  | .hbm, ⟨45, _⟩ => ⟨S_, .i32⟩
  | .hbm, ⟨46, _⟩ => ⟨S144000, .i32⟩
  | .hbm, ⟨47, _⟩ => ⟨S144000, .i1⟩
  | .hbm, ⟨48, _⟩ => ⟨S_, .i32⟩
  | .hbm, ⟨49, _⟩ => ⟨S144000, .i32⟩
  | .hbm, ⟨50, _⟩ => ⟨S144000, .i32⟩
  | .hbm, ⟨51, _⟩ => ⟨S144000, .i32⟩
  | .hbm, ⟨52, _⟩ => ⟨S144000x1, .i32⟩
  | .hbm, ⟨53, _⟩ => ⟨S144000x512, .f32⟩
  | .hbm, ⟨54, _⟩ => ⟨S_, .f32⟩
  | .hbm, ⟨55, _⟩ => ⟨S12000x512, .f32⟩
  | .hbm, ⟨56, _⟩ => ⟨S144000x1, .i32⟩
  | .hbm, ⟨57, _⟩ => ⟨S12000x512, .f32⟩
  | .hbm, ⟨58, _⟩ => ⟨S_, .f32⟩
  | .hbm, ⟨59, _⟩ => ⟨S144000, .f32⟩
  | .hbm, ⟨60, _⟩ => ⟨S_, .f32⟩
  | .hbm, ⟨61, _⟩ => ⟨S12000, .f32⟩
  | .hbm, ⟨62, _⟩ => ⟨S144000x1, .i32⟩
  | .hbm, ⟨63, _⟩ => ⟨S12000, .f32⟩
  | .hbm, ⟨64, _⟩ => ⟨S_, .f32⟩
  | .hbm, ⟨65, _⟩ => ⟨S12000, .f32⟩
  | .hbm, ⟨66, _⟩ => ⟨S12000, .f32⟩
  | .hbm, ⟨67, _⟩ => ⟨S12000x1, .f32⟩
  | .hbm, ⟨68, _⟩ => ⟨S12000x512, .f32⟩
  | .hbm, ⟨69, _⟩ => ⟨S12000x512, .f32⟩
  | .hbm, ⟨70, _⟩ => ⟨S1x512, .f32⟩
  | .hbm, ⟨71, _⟩ => ⟨S12000x512, .f32⟩
  | .hbm, ⟨72, _⟩ => ⟨S4096x512, .f32⟩
  | .hbm, ⟨73, _⟩ => ⟨S_, .i32⟩
  | .hbm, ⟨74, _⟩ => ⟨S49152, .i32⟩
  | .hbm, ⟨75, _⟩ => ⟨S49152, .i1⟩
  | .hbm, ⟨76, _⟩ => ⟨S_, .i32⟩
  | .hbm, ⟨77, _⟩ => ⟨S49152, .i32⟩
  | .hbm, ⟨78, _⟩ => ⟨S49152, .i32⟩
  | .hbm, ⟨79, _⟩ => ⟨S49152, .i32⟩
  | .hbm, ⟨80, _⟩ => ⟨S49152x1, .i32⟩
  | .hbm, ⟨81, _⟩ => ⟨S49152x512, .f32⟩
  | .hbm, ⟨82, _⟩ => ⟨S_, .f32⟩
  | .hbm, ⟨83, _⟩ => ⟨S4096x512, .f32⟩
  | .hbm, ⟨84, _⟩ => ⟨S49152x1, .i32⟩
  | .hbm, ⟨85, _⟩ => ⟨S4096x512, .f32⟩
  | .hbm, ⟨86, _⟩ => ⟨S_, .f32⟩
  | .hbm, ⟨87, _⟩ => ⟨S49152, .f32⟩
  | .hbm, ⟨88, _⟩ => ⟨S_, .f32⟩
  | .hbm, ⟨89, _⟩ => ⟨S4096, .f32⟩
  | .hbm, ⟨90, _⟩ => ⟨S49152x1, .i32⟩
  | .hbm, ⟨91, _⟩ => ⟨S4096, .f32⟩
  | .hbm, ⟨92, _⟩ => ⟨S_, .f32⟩
  | .hbm, ⟨93, _⟩ => ⟨S4096, .f32⟩
  | .hbm, ⟨94, _⟩ => ⟨S4096, .f32⟩
  | .hbm, ⟨95, _⟩ => ⟨S4096x1, .f32⟩
  | .hbm, ⟨96, _⟩ => ⟨S4096x512, .f32⟩
  | .hbm, ⟨97, _⟩ => ⟨S4096x512, .f32⟩
  | .hbm, ⟨98, _⟩ => ⟨S1x256, .f32⟩
  | .hbm, ⟨99, _⟩ => ⟨S4096x256, .f32⟩
  | .local _ .vmem, ⟨0, _⟩ => ⟨S2000x300, .f32⟩
  | .local _ .vmem, ⟨1, _⟩ => ⟨S2000x300, .f32⟩
  | .local _ .vmem, ⟨2, _⟩ => ⟨S2000x300, .f32⟩
  | .local _ .vmem, ⟨3, _⟩ => ⟨S2000x300, .f32⟩
  | .local _ .vmem, ⟨4, _⟩ => ⟨S300x512, .f32⟩
  | .local _ .vmem, ⟨5, _⟩ => ⟨S300x512, .f32⟩
  | .local _ .vmem, ⟨6, _⟩ => ⟨S1x512, .f32⟩
  | .local _ .vmem, ⟨7, _⟩ => ⟨S2000x512, .f32⟩
  | .local _ .vmem, ⟨8, _⟩ => ⟨S2000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S1000x512, .f32⟩
  | .local _ .vmem, ⟨17, _⟩ => ⟨S1000x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S512x256, .f32⟩
  | .local _ .vmem, ⟨23, _⟩ => ⟨S512x256, .f32⟩
  | .local _ .vmem, ⟨24, _⟩ => ⟨S1x256, .f32⟩
  | .local _ .vmem, ⟨25, _⟩ => ⟨S1024x256, .f32⟩
  | .local _ .vmem, ⟨26, _⟩ => ⟨S1024x256, .f32⟩
  | _, _ => ⟨S300000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_c_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_13 : Ref sig .tc := ⟨.hbm, 86, rfl⟩
abbrev main_v55 : Ref sig .tc := ⟨.hbm, 87, rfl⟩
abbrev main_cst_14 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_15 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S300000x300_S60000x300_0_0 : S300000x300.Slices ![0, 0] S60000x300
  bcast_S_S720000 : S_.BroadcastsInDim S720000 (![] : Fin 0 → Fin S720000.rank)
  bcast_S720000_S720000x1_0 : S720000.BroadcastsInDim S720000x1 (![0] : Fin 1 → Fin S720000x1.rank)
  bcast_S_S60000x300 : S_.BroadcastsInDim S60000x300 (![] : Fin 0 → Fin S60000x300.rank)
  bcast_S_S60000 : S_.BroadcastsInDim S60000 (![] : Fin 0 → Fin S60000.rank)
  bcast_S60000_S60000x1_0 : S60000.BroadcastsInDim S60000x1 (![0] : Fin 1 → Fin S60000x1.rank)
  bcast_S60000x1_S60000x300_0_1 : S60000x1.BroadcastsInDim S60000x300 (![0, 1] : Fin 2 → Fin S60000x300.rank)
  shapeCasts_S512_S1x512 : S512.ShapeCasts S1x512
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  bitsLt_bf16_f32 : FTy.bits .bf16 < FTy.bits .f32
  inb_S300x512_S300x512_0_0 : ∀ a, (![0, 0] : Fin 2 → Nat) a + S300x512.size a ≤ S300x512.size a
  h_S300x512 : 0 < S300x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S60000x512_S12000x512_0_0 : S60000x512.Slices ![0, 0] S12000x512
  bcast_S_S144000 : S_.BroadcastsInDim S144000 (![] : Fin 0 → Fin S144000.rank)
  bcast_S144000_S144000x1_0 : S144000.BroadcastsInDim S144000x1 (![0] : Fin 1 → Fin S144000x1.rank)
  bcast_S_S12000x512 : S_.BroadcastsInDim S12000x512 (![] : Fin 0 → Fin S12000x512.rank)
  bcast_S_S12000 : S_.BroadcastsInDim S12000 (![] : Fin 0 → Fin S12000.rank)
  bcast_S12000_S12000x1_0 : S12000.BroadcastsInDim S12000x1 (![0] : Fin 1 → Fin S12000x1.rank)
  bcast_S12000x1_S12000x512_0_1 : S12000x1.BroadcastsInDim S12000x512 (![0, 1] : Fin 2 → Fin S12000x512.rank)
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  broadcasts_S1x512_S1000x512 : S1x512.Broadcasts S1000x512
  slices_S12000x512_S4096x512_0_0 : S12000x512.Slices ![0, 0] S4096x512
  bcast_S_S49152 : S_.BroadcastsInDim S49152 (![] : Fin 0 → Fin S49152.rank)
  bcast_S49152_S49152x1_0 : S49152.BroadcastsInDim S49152x1 (![0] : Fin 1 → Fin S49152x1.rank)
  bcast_S_S4096x512 : S_.BroadcastsInDim S4096x512 (![] : Fin 0 → Fin S4096x512.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  shapeCasts_S256_S1x256 : S256.ShapeCasts S1x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  gather_S300000x300_S720000x1_S720000x300_1_0_n_n_0_1_1300_wf : GatherDims.WF S300000x300 S720000x1 S720000x300 [1] [0] [] [0] [] 1 ![1, 300]
  scatter_S60000x300_S720000x1_S720000x300_1_0_0_1_wf : ScatterDims.WF S60000x300 S720000x1 S720000x300 [1] [0] [0] 1
  scatter_S60000_S720000x1_S720000_n_0_0_1_wf : ScatterDims.WF S60000 S720000x1 S720000 [] [0] [0] 1
  dot_S2000x300_S300x512_S2000x512_1_0_0_1_n_n_wf : DotDims.WF S2000x300 S300x512 S2000x512 [1] [0] [0] [1] [] []
  gather_S60000x512_S144000x1_S144000x512_1_0_n_n_0_1_1512_wf : GatherDims.WF S60000x512 S144000x1 S144000x512 [1] [0] [] [0] [] 1 ![1, 512]
  scatter_S12000x512_S144000x1_S144000x512_1_0_0_1_wf : ScatterDims.WF S12000x512 S144000x1 S144000x512 [1] [0] [0] 1
  scatter_S12000_S144000x1_S144000_n_0_0_1_wf : ScatterDims.WF S12000 S144000x1 S144000 [] [0] [0] 1
  dot_S1000x512_S512x512_S1000x512_1_0_0_1_n_n_wf : DotDims.WF S1000x512 S512x512 S1000x512 [1] [0] [0] [1] [] []
  gather_S12000x512_S49152x1_S49152x512_1_0_n_n_0_1_1512_wf : GatherDims.WF S12000x512 S49152x1 S49152x512 [1] [0] [] [0] [] 1 ![1, 512]
  scatter_S4096x512_S49152x1_S49152x512_1_0_0_1_wf : ScatterDims.WF S4096x512 S49152x1 S49152x512 [1] [0] [0] 1
  scatter_S4096_S49152x1_S49152_n_0_0_1_wf : ScatterDims.WF S4096 S49152x1 S49152 [] [0] [0] 1
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S60000x300.size a
  hwx0_0 : ∀ i : grid0.Coords, EltTy.bits .f32 = 32 ∨ (Rect.block (s := S60000x300) S2000x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x300.size a ≤ S60000x300.size a
  hwx0_1 : ∀ i : grid0.Coords, EltTy.bits .f32 = 32 ∨ (Rect.block (s := S60000x300) S2000x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x512.size a ≤ S300x512.size a
  hwx0_2 : ∀ i : grid0.Coords, EltTy.bits .f32 = 32 ∨ (Rect.block (s := S300x512) S300x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x512.size a ≤ S300x512.size a
  hwx0_3 : ∀ i : grid0.Coords, EltTy.bits .f32 = 32 ∨ (Rect.block (s := S300x512) S300x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S60000x512.size a
  hwx0_5 : ∀ i : grid0.Coords, EltTy.bits .f32 = 32 ∨ (Rect.block (s := S60000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S12000x512.size a
  hwx1_0 : ∀ i : grid1.Coords, EltTy.bits .f32 = 32 ∨ (Rect.block (s := S12000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S12000x512.size a
  hwx1_1 : ∀ i : grid1.Coords, EltTy.bits .f32 = 32 ∨ (Rect.block (s := S12000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S12000x512.size a
  hwx1_5 : ∀ i : grid1.Coords, EltTy.bits .f32 = 32 ∨ (Rect.block (s := S12000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x512.size a
  hwx2_0 : ∀ i : grid2.Coords, EltTy.bits .f32 = 32 ∨ (Rect.block (s := S4096x512) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x512.size a
  hwx2_1 : ∀ i : grid2.Coords, EltTy.bits .f32 = 32 ∨ (Rect.block (s := S4096x512) S1024x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S512x256.size a
  hwx2_2 : ∀ i : grid2.Coords, EltTy.bits .f32 = 32 ∨ (Rect.block (s := S512x256) S512x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S512x256.size a
  hwx2_3 : ∀ i : grid2.Coords, EltTy.bits .f32 = 32 ∨ (Rect.block (s := S512x256) S512x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S4096x256.size a
  hwx2_5 : ∀ i : grid2.Coords, EltTy.bits .f32 = 32 ∨ (Rect.block (s := S4096x256) S1024x256.size (cc2_transform_5 i) (hinb2_5 i)).WholeWords (EltTy.packing .f32)

variable [Facts₀]

def gather_S300000x300_S720000x1_S720000x300_1_0_n_n_0_1_1300 : GatherDims S300000x300 S720000x1 S720000x300 where
  offsetDims := [1]
  collapsedSliceDims := [0]
  operandBatchingDims := []
  startIndicesBatchingDims := []
  startIndexMap := [0]
  indexVectorDim := 1
  sliceSizes := ![1, 300]
  wf := gather_S300000x300_S720000x1_S720000x300_1_0_n_n_0_1_1300_wf
def scatter_S60000x300_S720000x1_S720000x300_1_0_0_1 : ScatterDims S60000x300 S720000x1 S720000x300 where
  updateWindowDims := [1]
  insertedWindowDims := [0]
  scatterDimsToOperandDims := [0]
  indexVectorDim := 1
  wf := scatter_S60000x300_S720000x1_S720000x300_1_0_0_1_wf
def scatter_S60000_S720000x1_S720000_n_0_0_1 : ScatterDims S60000 S720000x1 S720000 where
  updateWindowDims := []
  insertedWindowDims := [0]
  scatterDimsToOperandDims := [0]
  indexVectorDim := 1
  wf := scatter_S60000_S720000x1_S720000_n_0_0_1_wf
def dot_S2000x300_S300x512_S2000x512_1_0_0_1_n_n : DotDims S2000x300 S300x512 S2000x512 where
  lhsContracting := [1]
  rhsContracting := [0]
  lhsNonContracting := [0]
  rhsNonContracting := [1]
  lhsBatch := []
  rhsBatch := []
  wf := dot_S2000x300_S300x512_S2000x512_1_0_0_1_n_n_wf
def gather_S60000x512_S144000x1_S144000x512_1_0_n_n_0_1_1512 : GatherDims S60000x512 S144000x1 S144000x512 where
  offsetDims := [1]
  collapsedSliceDims := [0]
  operandBatchingDims := []
  startIndicesBatchingDims := []
  startIndexMap := [0]
  indexVectorDim := 1
  sliceSizes := ![1, 512]
  wf := gather_S60000x512_S144000x1_S144000x512_1_0_n_n_0_1_1512_wf
def scatter_S12000x512_S144000x1_S144000x512_1_0_0_1 : ScatterDims S12000x512 S144000x1 S144000x512 where
  updateWindowDims := [1]
  insertedWindowDims := [0]
  scatterDimsToOperandDims := [0]
  indexVectorDim := 1
  wf := scatter_S12000x512_S144000x1_S144000x512_1_0_0_1_wf
def scatter_S12000_S144000x1_S144000_n_0_0_1 : ScatterDims S12000 S144000x1 S144000 where
  updateWindowDims := []
  insertedWindowDims := [0]
  scatterDimsToOperandDims := [0]
  indexVectorDim := 1
  wf := scatter_S12000_S144000x1_S144000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S12000x512_S49152x1_S49152x512_1_0_n_n_0_1_1512 : GatherDims S12000x512 S49152x1 S49152x512 where
  offsetDims := [1]
  collapsedSliceDims := [0]
  operandBatchingDims := []
  startIndicesBatchingDims := []
  startIndexMap := [0]
  indexVectorDim := 1
  sliceSizes := ![1, 512]
  wf := gather_S12000x512_S49152x1_S49152x512_1_0_n_n_0_1_1512_wf
def scatter_S4096x512_S49152x1_S49152x512_1_0_0_1 : ScatterDims S4096x512 S49152x1 S49152x512 where
  updateWindowDims := [1]
  insertedWindowDims := [0]
  scatterDimsToOperandDims := [0]
  indexVectorDim := 1
  wf := scatter_S4096x512_S49152x1_S49152x512_1_0_0_1_wf
def scatter_S4096_S49152x1_S49152_n_0_0_1 : ScatterDims S4096 S49152x1 S49152 where
  updateWindowDims := []
  insertedWindowDims := [0]
  scatterDimsToOperandDims := [0]
  indexVectorDim := 1
  wf := scatter_S4096_S49152x1_S49152_n_0_0_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v19) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S300x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S300x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S512x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S512x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1024x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S300000x300 : Shape := ⟨2, ![300000, 300]⟩
abbrev S720000 : Shape := ⟨1, ![720000]⟩
abbrev S144000 : Shape := ⟨1, ![144000]⟩
abbrev S49152 : Shape := ⟨1, ![49152]⟩
abbrev S300x512 : Shape := ⟨2, ![300, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S60000x300 : Shape := ⟨2, ![60000, 300]⟩
abbrev S_ : Shape := ⟨0, ![]⟩
abbrev S720000x1 : Shape := ⟨2, ![720000, 1]⟩
abbrev S720000x300 : Shape := ⟨2, ![720000, 300]⟩
abbrev S60000 : Shape := ⟨1, ![60000]⟩
abbrev S60000x1 : Shape := ⟨2, ![60000, 1]⟩
abbrev S60000x512 : Shape := ⟨2, ![60000, 512]⟩
abbrev S1x512 : Shape := ⟨2, ![1, 512]⟩
abbrev S12000x512 : Shape := ⟨2, ![12000, 512]⟩
abbrev S144000x1 : Shape := ⟨2, ![144000, 1]⟩
abbrev S144000x512 : Shape := ⟨2, ![144000, 512]⟩
abbrev S12000 : Shape := ⟨1, ![12000]⟩
abbrev S12000x1 : Shape := ⟨2, ![12000, 1]⟩
abbrev S4096x512 : Shape := ⟨2, ![4096, 512]⟩
abbrev S49152x1 : Shape := ⟨2, ![49152, 1]⟩
abbrev S49152x512 : Shape := ⟨2, ![49152, 512]⟩
abbrev S4096 : Shape := ⟨1, ![4096]⟩
abbrev S4096x1 : Shape := ⟨2, ![4096, 1]⟩
abbrev S4096x256 : Shape := ⟨2, ![4096, 256]⟩
abbrev S1x256 : Shape := ⟨2, ![1, 256]⟩

abbrev nBuf : Space → Nat
  | .hbm => 118
  | .vmem => 0
  | .smem => 0
  | _ => 0

abbrev bufTy : (tb : Table) → Fin (tcTables nBuf tb) → BufTy
  | .hbm, ⟨0, _⟩ => ⟨S300000x300, .f32⟩
  | .hbm, ⟨1, _⟩ => ⟨S720000, .i32⟩
  | .hbm, ⟨2, _⟩ => ⟨S720000, .i32⟩
  | .hbm, ⟨3, _⟩ => ⟨S144000, .i32⟩
  | .hbm, ⟨4, _⟩ => ⟨S144000, .i32⟩
  | .hbm, ⟨5, _⟩ => ⟨S49152, .i32⟩
  | .hbm, ⟨6, _⟩ => ⟨S49152, .i32⟩
  | .hbm, ⟨7, _⟩ => ⟨S300x512, .f32⟩
  | .hbm, ⟨8, _⟩ => ⟨S300x512, .f32⟩
  | .hbm, ⟨9, _⟩ => ⟨S512, .f32⟩
  | .hbm, ⟨10, _⟩ => ⟨S512x512, .f32⟩
  | .hbm, ⟨11, _⟩ => ⟨S512x512, .f32⟩
  | .hbm, ⟨12, _⟩ => ⟨S512, .f32⟩
  | .hbm, ⟨13, _⟩ => ⟨S512x256, .f32⟩
  | .hbm, ⟨14, _⟩ => ⟨S512x256, .f32⟩
  | .hbm, ⟨15, _⟩ => ⟨S256, .f32⟩
  | .hbm, ⟨16, _⟩ => ⟨S60000x300, .f32⟩
  | .hbm, ⟨17, _⟩ => ⟨S_, .i32⟩
  | .hbm, ⟨18, _⟩ => ⟨S720000, .i32⟩
  | .hbm, ⟨19, _⟩ => ⟨S720000, .i1⟩
  | .hbm, ⟨20, _⟩ => ⟨S_, .i32⟩
  | .hbm, ⟨21, _⟩ => ⟨S720000, .i32⟩
  | .hbm, ⟨22, _⟩ => ⟨S720000, .i32⟩
  | .hbm, ⟨23, _⟩ => ⟨S720000, .i32⟩
  | .hbm, ⟨24, _⟩ => ⟨S720000x1, .i32⟩
  | .hbm, ⟨25, _⟩ => ⟨S720000x300, .f32⟩
  | .hbm, ⟨26, _⟩ => ⟨S_, .f32⟩
  | .hbm, ⟨27, _⟩ => ⟨S60000x300, .f32⟩
  | .hbm, ⟨28, _⟩ => ⟨S720000x1, .i32⟩
  | .hbm, ⟨29, _⟩ => ⟨S60000x300, .f32⟩
  | .hbm, ⟨30, _⟩ => ⟨S_, .f32⟩
  | .hbm, ⟨31, _⟩ => ⟨S720000, .f32⟩
  | .hbm, ⟨32, _⟩ => ⟨S_, .f32⟩
  | .hbm, ⟨33, _⟩ => ⟨S60000, .f32⟩
  | .hbm, ⟨34, _⟩ => ⟨S720000x1, .i32⟩
  | .hbm, ⟨35, _⟩ => ⟨S60000, .f32⟩
  | .hbm, ⟨36, _⟩ => ⟨S_, .f32⟩
  | .hbm, ⟨37, _⟩ => ⟨S60000, .f32⟩
  | .hbm, ⟨38, _⟩ => ⟨S60000, .f32⟩
  | .hbm, ⟨39, _⟩ => ⟨S60000x1, .f32⟩
  | .hbm, ⟨40, _⟩ => ⟨S60000x300, .f32⟩
  | .hbm, ⟨41, _⟩ => ⟨S60000x300, .f32⟩
  | .hbm, ⟨42, _⟩ => ⟨S60000x512, .f32⟩
  | .hbm, ⟨43, _⟩ => ⟨S60000x512, .f32⟩
  | .hbm, ⟨44, _⟩ => ⟨S60000x512, .f32⟩
  | .hbm, ⟨45, _⟩ => ⟨S1x512, .f32⟩
  | .hbm, ⟨46, _⟩ => ⟨S60000x512, .f32⟩
  | .hbm, ⟨47, _⟩ => ⟨S60000x512, .f32⟩
  | .hbm, ⟨48, _⟩ => ⟨S_, .f32⟩
  | .hbm, ⟨49, _⟩ => ⟨S60000x512, .f32⟩
  | .hbm, ⟨50, _⟩ => ⟨S60000x512, .f32⟩
  | .hbm, ⟨51, _⟩ => ⟨S12000x512, .f32⟩
  | .hbm, ⟨52, _⟩ => ⟨S_, .i32⟩
  | .hbm, ⟨53, _⟩ => ⟨S144000, .i32⟩
  | .hbm, ⟨54, _⟩ => ⟨S144000, .i1⟩
  | .hbm, ⟨55, _⟩ => ⟨S_, .i32⟩
  | .hbm, ⟨56, _⟩ => ⟨S144000, .i32⟩
  | .hbm, ⟨57, _⟩ => ⟨S144000, .i32⟩
  | .hbm, ⟨58, _⟩ => ⟨S144000, .i32⟩
  | .hbm, ⟨59, _⟩ => ⟨S144000x1, .i32⟩
  | .hbm, ⟨60, _⟩ => ⟨S144000x512, .f32⟩
  | .hbm, ⟨61, _⟩ => ⟨S_, .f32⟩
  | .hbm, ⟨62, _⟩ => ⟨S12000x512, .f32⟩
  | .hbm, ⟨63, _⟩ => ⟨S144000x1, .i32⟩
  | .hbm, ⟨64, _⟩ => ⟨S12000x512, .f32⟩
  | .hbm, ⟨65, _⟩ => ⟨S_, .f32⟩
  | .hbm, ⟨66, _⟩ => ⟨S144000, .f32⟩
  | .hbm, ⟨67, _⟩ => ⟨S_, .f32⟩
  | .hbm, ⟨68, _⟩ => ⟨S12000, .f32⟩
  | .hbm, ⟨69, _⟩ => ⟨S144000x1, .i32⟩
  | .hbm, ⟨70, _⟩ => ⟨S12000, .f32⟩
  | .hbm, ⟨71, _⟩ => ⟨S_, .f32⟩
  | .hbm, ⟨72, _⟩ => ⟨S12000, .f32⟩
  | .hbm, ⟨73, _⟩ => ⟨S12000, .f32⟩
  | .hbm, ⟨74, _⟩ => ⟨S12000x1, .f32⟩
  | .hbm, ⟨75, _⟩ => ⟨S12000x512, .f32⟩
  | .hbm, ⟨76, _⟩ => ⟨S12000x512, .f32⟩
  | .hbm, ⟨77, _⟩ => ⟨S12000x512, .f32⟩
  | .hbm, ⟨78, _⟩ => ⟨S12000x512, .f32⟩
  | .hbm, ⟨79, _⟩ => ⟨S12000x512, .f32⟩
  | .hbm, ⟨80, _⟩ => ⟨S1x512, .f32⟩
  | .hbm, ⟨81, _⟩ => ⟨S12000x512, .f32⟩
  | .hbm, ⟨82, _⟩ => ⟨S12000x512, .f32⟩
  | .hbm, ⟨83, _⟩ => ⟨S_, .f32⟩
  | .hbm, ⟨84, _⟩ => ⟨S12000x512, .f32⟩
  | .hbm, ⟨85, _⟩ => ⟨S12000x512, .f32⟩
  | .hbm, ⟨86, _⟩ => ⟨S4096x512, .f32⟩
  | .hbm, ⟨87, _⟩ => ⟨S_, .i32⟩
  | .hbm, ⟨88, _⟩ => ⟨S49152, .i32⟩
  | .hbm, ⟨89, _⟩ => ⟨S49152, .i1⟩
  | .hbm, ⟨90, _⟩ => ⟨S_, .i32⟩
  | .hbm, ⟨91, _⟩ => ⟨S49152, .i32⟩
  | .hbm, ⟨92, _⟩ => ⟨S49152, .i32⟩
  | .hbm, ⟨93, _⟩ => ⟨S49152, .i32⟩
  | .hbm, ⟨94, _⟩ => ⟨S49152x1, .i32⟩
  | .hbm, ⟨95, _⟩ => ⟨S49152x512, .f32⟩
  | .hbm, ⟨96, _⟩ => ⟨S_, .f32⟩
  | .hbm, ⟨97, _⟩ => ⟨S4096x512, .f32⟩
  | .hbm, ⟨98, _⟩ => ⟨S49152x1, .i32⟩
  | .hbm, ⟨99, _⟩ => ⟨S4096x512, .f32⟩
  | .hbm, ⟨100, _⟩ => ⟨S_, .f32⟩
  | .hbm, ⟨101, _⟩ => ⟨S49152, .f32⟩
  | .hbm, ⟨102, _⟩ => ⟨S_, .f32⟩
  | .hbm, ⟨103, _⟩ => ⟨S4096, .f32⟩
  | .hbm, ⟨104, _⟩ => ⟨S49152x1, .i32⟩
  | .hbm, ⟨105, _⟩ => ⟨S4096, .f32⟩
  | .hbm, ⟨106, _⟩ => ⟨S_, .f32⟩
  | .hbm, ⟨107, _⟩ => ⟨S4096, .f32⟩
  | .hbm, ⟨108, _⟩ => ⟨S4096, .f32⟩
  | .hbm, ⟨109, _⟩ => ⟨S4096x1, .f32⟩
  | .hbm, ⟨110, _⟩ => ⟨S4096x512, .f32⟩
  | .hbm, ⟨111, _⟩ => ⟨S4096x512, .f32⟩
  | .hbm, ⟨112, _⟩ => ⟨S4096x256, .f32⟩
  | .hbm, ⟨113, _⟩ => ⟨S4096x256, .f32⟩
  | .hbm, ⟨114, _⟩ => ⟨S4096x256, .f32⟩
  | .hbm, ⟨115, _⟩ => ⟨S1x256, .f32⟩
  | .hbm, ⟨116, _⟩ => ⟨S4096x256, .f32⟩
  | .hbm, ⟨117, _⟩ => ⟨S4096x256, .f32⟩
  | _, _ => ⟨S300000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_v54 : Ref sig .tc := ⟨.hbm, 86, rfl⟩
abbrev main_c_10 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩

abbrev nD : Nat := 1
abbrev τ : Topo := Topo.v7x

variable {F : FTy → Type} [FloatOps F]

class Facts₀ : Prop where
  slices_S300000x300_S60000x300_0_0 : S300000x300.Slices ![0, 0] S60000x300
  bcast_S_S720000 : S_.BroadcastsInDim S720000 (![] : Fin 0 → Fin S720000.rank)
  bcast_S720000_S720000x1_0 : S720000.BroadcastsInDim S720000x1 (![0] : Fin 1 → Fin S720000x1.rank)
  bcast_S_S60000x300 : S_.BroadcastsInDim S60000x300 (![] : Fin 0 → Fin S60000x300.rank)
  bcast_S_S60000 : S_.BroadcastsInDim S60000 (![] : Fin 0 → Fin S60000.rank)
  bcast_S60000_S60000x1_0 : S60000.BroadcastsInDim S60000x1 (![0] : Fin 1 → Fin S60000x1.rank)
  bcast_S60000x1_S60000x300_0_1 : S60000x1.BroadcastsInDim S60000x300 (![0, 1] : Fin 2 → Fin S60000x300.rank)
  bcast_S512_S1x512_1 : S512.BroadcastsInDim S1x512 (![1] : Fin 1 → Fin S1x512.rank)
  bcast_S1x512_S60000x512_0_1 : S1x512.BroadcastsInDim S60000x512 (![0, 1] : Fin 2 → Fin S60000x512.rank)
  bcast_S_S60000x512 : S_.BroadcastsInDim S60000x512 (![] : Fin 0 → Fin S60000x512.rank)
  slices_S60000x512_S12000x512_0_0 : S60000x512.Slices ![0, 0] S12000x512
  bcast_S_S144000 : S_.BroadcastsInDim S144000 (![] : Fin 0 → Fin S144000.rank)
  bcast_S144000_S144000x1_0 : S144000.BroadcastsInDim S144000x1 (![0] : Fin 1 → Fin S144000x1.rank)
  bcast_S_S12000x512 : S_.BroadcastsInDim S12000x512 (![] : Fin 0 → Fin S12000x512.rank)
  bcast_S_S12000 : S_.BroadcastsInDim S12000 (![] : Fin 0 → Fin S12000.rank)
  bcast_S12000_S12000x1_0 : S12000.BroadcastsInDim S12000x1 (![0] : Fin 1 → Fin S12000x1.rank)
  bcast_S12000x1_S12000x512_0_1 : S12000x1.BroadcastsInDim S12000x512 (![0, 1] : Fin 2 → Fin S12000x512.rank)
  bcast_S1x512_S12000x512_0_1 : S1x512.BroadcastsInDim S12000x512 (![0, 1] : Fin 2 → Fin S12000x512.rank)
  slices_S12000x512_S4096x512_0_0 : S12000x512.Slices ![0, 0] S4096x512
  bcast_S_S49152 : S_.BroadcastsInDim S49152 (![] : Fin 0 → Fin S49152.rank)
  bcast_S49152_S49152x1_0 : S49152.BroadcastsInDim S49152x1 (![0] : Fin 1 → Fin S49152x1.rank)
  bcast_S_S4096x512 : S_.BroadcastsInDim S4096x512 (![] : Fin 0 → Fin S4096x512.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  gather_S300000x300_S720000x1_S720000x300_1_0_n_n_0_1_1300_wf : GatherDims.WF S300000x300 S720000x1 S720000x300 [1] [0] [] [0] [] 1 ![1, 300]
  scatter_S60000x300_S720000x1_S720000x300_1_0_0_1_wf : ScatterDims.WF S60000x300 S720000x1 S720000x300 [1] [0] [0] 1
  scatter_S60000_S720000x1_S720000_n_0_0_1_wf : ScatterDims.WF S60000 S720000x1 S720000 [] [0] [0] 1
  dot_S60000x300_S300x512_S60000x512_1_0_0_1_n_n_wf : DotDims.WF S60000x300 S300x512 S60000x512 [1] [0] [0] [1] [] []
  gather_S60000x512_S144000x1_S144000x512_1_0_n_n_0_1_1512_wf : GatherDims.WF S60000x512 S144000x1 S144000x512 [1] [0] [] [0] [] 1 ![1, 512]
  scatter_S12000x512_S144000x1_S144000x512_1_0_0_1_wf : ScatterDims.WF S12000x512 S144000x1 S144000x512 [1] [0] [0] 1
  scatter_S12000_S144000x1_S144000_n_0_0_1_wf : ScatterDims.WF S12000 S144000x1 S144000 [] [0] [0] 1
  dot_S12000x512_S512x512_S12000x512_1_0_0_1_n_n_wf : DotDims.WF S12000x512 S512x512 S12000x512 [1] [0] [0] [1] [] []
  gather_S12000x512_S49152x1_S49152x512_1_0_n_n_0_1_1512_wf : GatherDims.WF S12000x512 S49152x1 S49152x512 [1] [0] [] [0] [] 1 ![1, 512]
  scatter_S4096x512_S49152x1_S49152x512_1_0_0_1_wf : ScatterDims.WF S4096x512 S49152x1 S49152x512 [1] [0] [0] 1
  scatter_S4096_S49152x1_S49152_n_0_0_1_wf : ScatterDims.WF S4096 S49152x1 S49152 [] [0] [0] 1
  dot_S4096x512_S512x256_S4096x256_1_0_0_1_n_n_wf : DotDims.WF S4096x512 S512x256 S4096x256 [1] [0] [0] [1] [] []

variable [Facts₀]

def gather_S300000x300_S720000x1_S720000x300_1_0_n_n_0_1_1300 : GatherDims S300000x300 S720000x1 S720000x300 where
  offsetDims := [1]
  collapsedSliceDims := [0]
  operandBatchingDims := []
  startIndicesBatchingDims := []
  startIndexMap := [0]
  indexVectorDim := 1
  sliceSizes := ![1, 300]
  wf := gather_S300000x300_S720000x1_S720000x300_1_0_n_n_0_1_1300_wf
def scatter_S60000x300_S720000x1_S720000x300_1_0_0_1 : ScatterDims S60000x300 S720000x1 S720000x300 where
  updateWindowDims := [1]
  insertedWindowDims := [0]
  scatterDimsToOperandDims := [0]
  indexVectorDim := 1
  wf := scatter_S60000x300_S720000x1_S720000x300_1_0_0_1_wf
def scatter_S60000_S720000x1_S720000_n_0_0_1 : ScatterDims S60000 S720000x1 S720000 where
  updateWindowDims := []
  insertedWindowDims := [0]
  scatterDimsToOperandDims := [0]
  indexVectorDim := 1
  wf := scatter_S60000_S720000x1_S720000_n_0_0_1_wf
def dot_S60000x300_S300x512_S60000x512_1_0_0_1_n_n : DotDims S60000x300 S300x512 S60000x512 where
  lhsContracting := [1]
  rhsContracting := [0]
  lhsNonContracting := [0]
  rhsNonContracting := [1]
  lhsBatch := []
  rhsBatch := []
  wf := dot_S60000x300_S300x512_S60000x512_1_0_0_1_n_n_wf
def gather_S60000x512_S144000x1_S144000x512_1_0_n_n_0_1_1512 : GatherDims S60000x512 S144000x1 S144000x512 where
  offsetDims := [1]
  collapsedSliceDims := [0]
  operandBatchingDims := []
  startIndicesBatchingDims := []
  startIndexMap := [0]
  indexVectorDim := 1
  sliceSizes := ![1, 512]
  wf := gather_S60000x512_S144000x1_S144000x512_1_0_n_n_0_1_1512_wf
def scatter_S12000x512_S144000x1_S144000x512_1_0_0_1 : ScatterDims S12000x512 S144000x1 S144000x512 where
  updateWindowDims := [1]
  insertedWindowDims := [0]
  scatterDimsToOperandDims := [0]
  indexVectorDim := 1
  wf := scatter_S12000x512_S144000x1_S144000x512_1_0_0_1_wf
def scatter_S12000_S144000x1_S144000_n_0_0_1 : ScatterDims S12000 S144000x1 S144000 where
  updateWindowDims := []
  insertedWindowDims := [0]
  scatterDimsToOperandDims := [0]
  indexVectorDim := 1
  wf := scatter_S12000_S144000x1_S144000_n_0_0_1_wf
def dot_S12000x512_S512x512_S12000x512_1_0_0_1_n_n : DotDims S12000x512 S512x512 S12000x512 where
  lhsContracting := [1]
  rhsContracting := [0]
  lhsNonContracting := [0]
  rhsNonContracting := [1]
  lhsBatch := []
  rhsBatch := []
  wf := dot_S12000x512_S512x512_S12000x512_1_0_0_1_n_n_wf
def gather_S12000x512_S49152x1_S49152x512_1_0_n_n_0_1_1512 : GatherDims S12000x512 S49152x1 S49152x512 where
  offsetDims := [1]
  collapsedSliceDims := [0]
  operandBatchingDims := []
  startIndicesBatchingDims := []
  startIndexMap := [0]
  indexVectorDim := 1
  sliceSizes := ![1, 512]
  wf := gather_S12000x512_S49152x1_S49152x512_1_0_n_n_0_1_1512_wf
def scatter_S4096x512_S49152x1_S49152x512_1_0_0_1 : ScatterDims S4096x512 S49152x1 S49152x512 where
  updateWindowDims := [1]
  insertedWindowDims := [0]
  scatterDimsToOperandDims := [0]
  indexVectorDim := 1
  wf := scatter_S4096x512_S49152x1_S49152x512_1_0_0_1_wf
def scatter_S4096_S49152x1_S49152_n_0_0_1 : ScatterDims S4096 S49152x1 S49152 where
  updateWindowDims := []
  insertedWindowDims := [0]
  scatterDimsToOperandDims := [0]
  indexVectorDim := 1
  wf := scatter_S4096_S49152x1_S49152_n_0_0_1_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.KernelRun.lean ====
/-
  The idealized kernel program's run with its results named.
  The program is three kernel regions among stretches of host operations. The contents of the TensorCore's buffers at each
  boundary are a fold from the launch memory: a stretch of host operations applies them in order, a region leaves each of its
  arrays at what its write-backs make of it and every other buffer as it was. Every weakly fair execution terminates, and at
  the end every buffer that outlives the regions holds the last fold's contents. Read at the two result buffers this names the
  results; read at an argument's buffer the fold walks back to the launch contents, since no operation and no region writes an
  argument.
-/
import proofs.«152725_j60292750902065_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of the program terminates; at the end the last region's result buffer and the middle region's
    result buffer hold the last fold's contents there, and the arguments are as launched. -/
theorem run_results : θ_run defs (onTc (τ := τ) (main (F := F))) ⟨m, fun _ => 0, ρ⟩ (fun r => ∀ c : Dev nD,
      r.2.mem ((c.tc : Thread nD τ).loc main_v65) = W6 m ρ c (Proc.devRef .tc main_v65)
      ∧ r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v65 (by decide)),
       h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.Whole

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«152725_j60292750902065_1_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibSageStage.lean ====
/-
  A dense stage with two inputs on the extended reals, in the two spellings that lower from
  "x @ wl + y @ wr + b", with or without a cut-off below at 0.
  For M×K arrays x and y, K×N weights wl and wr and a bias vector b of length N the stage is
      (a, c) ↦ (Σ_{k<K} x(a,k)·wl(k,c) + Σ_{k<K} y(a,k)·wr(k,c)) + b(c) ,
  and its cut-off form is the maximum of that with 0.
  * affine_of_matmul, affineRelu_of_matmul: two matrix-unit products over the plain M×K by K×N dimension numbers, each into a
    zero accumulator, the row operands shape-cast to their own shape, all four operands narrowed to a 16-bit float format (the
    identity on the extended reals), added, plus a one-row array r spread over the rows — r being any [1, N] array whose
    entry (0, c) is b(c) — (then a maximum with a splat of the scalar word 0) is the stage.
  * affine_of_dotGeneral, affineRelu_of_dotGeneral: the host's two products over the same dimension numbers, added, plus b made a
    [1, N] row along axis 1 and spread along the axes [0, 1] (then a maximum with a rank-0 constant 0 spread along no axis) is
    the stage.
  * affine_congr, affineRelu_congr: the stage's value at (a, c) depends on x and y only through row a, on the weights only through
    column c and on the bias only through entry c, so blocks of rows of x and y beside the whole weights and bias give that
    block of the stage (for kernels that tile the rows over a grid).
  * rowVec: the vector a one-row array holds; a vector reshaped to one row holds that vector.
  Over the library, the plain-product lemmas and the row-broadcast lemmas only; every extent is a variable.
-/
import Idealize.ShloMosaic.PureOps.Ideal.Laws
import Idealize.ShloMosaic.Lib.ValueIdx
import Idealize.ShloMosaic.Lib.Pipeline.Value
import Idealize.ShloMosaic.Lib.ValueLayout
import proofs.«152725_j60292750902065_1_alg».proof.Proof.LibPlainDot
import proofs.«152725_j60292750902065_1_alg».proof.Proof.LibDenseStage
import proofs.«152725_j60292750902065_1_alg».proof.Proof.LibHostBroadcast

noncomputable section

namespace Cert.LibSageStage

open Idealize.ShloMosaic Idealize.ShloMosaic.ValueIdx

variable (M K N : Nat)

/-- x·wl + y·wr plus the bias. -/
def affine (x y : FVec Ideal ⟨2, ![M, K]⟩ .f32) (wl wr : FVec Ideal ⟨2, ![K, N]⟩ .f32) (b : FVec Ideal ⟨1, ![N]⟩ .f32) :
    FVec Ideal ⟨2, ![M, N]⟩ .f32 :=
  fun i => (∑ k : Fin K, x (ix2 (i 0) k) * wl (ix2 k (i 1)) + ∑ k : Fin K, y (ix2 (i 0) k) * wr (ix2 k (i 1))) + b (ix1 (i 1))

theorem affine_apply (x y : FVec Ideal ⟨2, ![M, K]⟩ .f32) (wl wr : FVec Ideal ⟨2, ![K, N]⟩ .f32) (b : FVec Ideal ⟨1, ![N]⟩ .f32)
    (a : Fin M) (c : Fin N) :
    affine M K N x y wl wr b (ix2 a c)
      = (∑ k : Fin K, x (ix2 a k) * wl (ix2 k c) + ∑ k : Fin K, y (ix2 a k) * wr (ix2 k c)) + b (ix1 c) := rfl

/-- The same, cut off below at 0. -/
def affineRelu (x y : FVec Ideal ⟨2, ![M, K]⟩ .f32) (wl wr : FVec Ideal ⟨2, ![K, N]⟩ .f32) (b : FVec Ideal ⟨1, ![N]⟩ .f32) :
    FVec Ideal ⟨2, ![M, N]⟩ .f32 :=
  fun i => max (affine M K N x y wl wr b i) 0

theorem affineRelu_apply (x y : FVec Ideal ⟨2, ![M, K]⟩ .f32) (wl wr : FVec Ideal ⟨2, ![K, N]⟩ .f32) (b : FVec Ideal ⟨1, ![N]⟩ .f32)
    (i : (⟨2, ![M, N]⟩ : Shape).Idx) :
    affineRelu M K N x y wl wr b i = max (affine M K N x y wl wr b i) 0 := rfl

/-- The stage at (a', c) of one set of operands is the stage at (a, c) of another when, entry by entry along the
    contraction, row a' of the first row operands is row a of the second, column c of the weights agree, and so does entry c of
    the bias: the form a row-tiled kernel needs, its blocks being rows of x and y beside the whole weights and bias. -/
theorem affine_congr (M' : Nat) (X Y : FVec Ideal ⟨2, ![M, K]⟩ .f32) (x y : FVec Ideal ⟨2, ![M', K]⟩ .f32)
    (WL WR wl wr : FVec Ideal ⟨2, ![K, N]⟩ .f32) (B b : FVec Ideal ⟨1, ![N]⟩ .f32) (a : Fin M) (a' : Fin M') (c : Fin N)
    (hx : ∀ k : Fin K, x (ix2 a' k) = X (ix2 a k)) (hy : ∀ k : Fin K, y (ix2 a' k) = Y (ix2 a k))
    (hwl : ∀ k : Fin K, wl (ix2 k c) = WL (ix2 k c)) (hwr : ∀ k : Fin K, wr (ix2 k c) = WR (ix2 k c))
    (hb : b (ix1 c) = B (ix1 c)) :
    affine M' K N x y wl wr b (ix2 a' c) = affine M K N X Y WL WR B (ix2 a c) := by
  rw [affine_apply, affine_apply]
  have e1 : ∑ k : Fin K, x (ix2 a' k) * wl (ix2 k c) = ∑ k : Fin K, X (ix2 a k) * WL (ix2 k c) :=
    Finset.sum_congr rfl fun k _ => by rw [hx k, hwl k]
  have e2 : ∑ k : Fin K, y (ix2 a' k) * wr (ix2 k c) = ∑ k : Fin K, Y (ix2 a k) * WR (ix2 k c) :=
    Finset.sum_congr rfl fun k _ => by rw [hy k, hwr k]
  rw [e1, e2, hb]

theorem affineRelu_congr (M' : Nat) (X Y : FVec Ideal ⟨2, ![M, K]⟩ .f32) (x y : FVec Ideal ⟨2, ![M', K]⟩ .f32)
    (WL WR wl wr : FVec Ideal ⟨2, ![K, N]⟩ .f32) (B b : FVec Ideal ⟨1, ![N]⟩ .f32) (a : Fin M) (a' : Fin M') (c : Fin N)
    (hx : ∀ k : Fin K, x (ix2 a' k) = X (ix2 a k)) (hy : ∀ k : Fin K, y (ix2 a' k) = Y (ix2 a k))
    (hwl : ∀ k : Fin K, wl (ix2 k c) = WL (ix2 k c)) (hwr : ∀ k : Fin K, wr (ix2 k c) = WR (ix2 k c))
    (hb : b (ix1 c) = B (ix1 c)) :
    affineRelu M' K N x y wl wr b (ix2 a' c) = affineRelu M K N X Y WL WR B (ix2 a c) := by
  rw [affineRelu_apply, affineRelu_apply, affine_congr M K N M' X Y x y WL WR wl wr B b a a' c hx hy hwl hwr hb]

/-- The vector a one-row array holds. -/
def rowVec (r : FVec Ideal ⟨2, ![1, N]⟩ .f32) : FVec Ideal ⟨1, ![N]⟩ .f32 := fun j => r (ix2 (0 : Fin 1) (j 0))

theorem rowVec_apply (r : FVec Ideal ⟨2, ![1, N]⟩ .f32) (c : Fin N) : rowVec N r (ix1 c) = r (ix2 (0 : Fin 1) c) := rfl

/-- A vector reshaped to one row holds that vector. -/
theorem rowVec_shapeCast (b : FVec Ideal ⟨1, ![N]⟩ .f32) (h : (⟨1, ![N]⟩ : Shape).ShapeCasts ⟨2, ![1, N]⟩) :
    rowVec N (shapeCast ⟨2, ![1, N]⟩ b h) = b :=
  funext fun j => by
    obtain ⟨c, rfl⟩ : ∃ c : Fin N, j = ix1 c := ⟨j 0, eq_ix1 j⟩
    exact shapeCast_a_1a_apply b h 0 c

/-- The matrix unit's spelling of the stage. -/
theorem affine_of_matmul (x y : FVec Ideal ⟨2, ![M, K]⟩ .f32) (wl wr : FVec Ideal ⟨2, ![K, N]⟩ .f32)
    (r : FVec Ideal ⟨2, ![1, N]⟩ .f32) (b : FVec Ideal ⟨1, ![N]⟩ .f32) (hr : ∀ c : Fin N, r (ix2 (0 : Fin 1) c) = b (ix1 c))
    (h1 h2 h3 h4 : FTy.bf16.bits < FTy.f32.bits)
    (hx hy : (⟨2, ![M, K]⟩ : Shape).ShapeCasts ⟨2, ![M, K]⟩)
    (hc : (⟨2, ![1, N]⟩ : Shape).ShapeCasts ⟨2, ![1, N]⟩) (hb : (⟨2, ![1, N]⟩ : Shape).Broadcasts ⟨2, ![M, N]⟩) :
    addf (addf
        (matmul (F := Ideal) (DotDims.plain M K N) none (truncf .bf16 (shapeCast ⟨2, ![M, K]⟩ x hx) h1) (truncf .bf16 wl h2)
          (constant ⟨2, ![M, N]⟩ .f32 0x00000000#32))
        (matmul (F := Ideal) (DotDims.plain M K N) none (truncf .bf16 (shapeCast ⟨2, ![M, K]⟩ y hy) h3) (truncf .bf16 wr h4)
          (constant ⟨2, ![M, N]⟩ .f32 0x00000000#32)))
      (broadcastTo ⟨2, ![M, N]⟩ (shapeCast ⟨2, ![1, N]⟩ r hc) hb)
      = affine M K N x y wl wr b := by
  funext i
  obtain ⟨a, c, rfl⟩ : ∃ (a : Fin M) (c : Fin N), i = ix2 a c := ⟨i 0, i 1, eq_ix2 i⟩
  rw [addf_apply, addf_apply, Cert.LibPlainDot.matmul_plain, Cert.LibPlainDot.matmul_plain, shapeCast_self, shapeCast_self,
    shapeCast_self, Cert.LibDenseStage.row_broadcastTo, hr, affine_apply]
  rfl

theorem affineRelu_of_matmul (x y : FVec Ideal ⟨2, ![M, K]⟩ .f32) (wl wr : FVec Ideal ⟨2, ![K, N]⟩ .f32)
    (r : FVec Ideal ⟨2, ![1, N]⟩ .f32) (b : FVec Ideal ⟨1, ![N]⟩ .f32) (hr : ∀ c : Fin N, r (ix2 (0 : Fin 1) c) = b (ix1 c))
    (h1 h2 h3 h4 : FTy.bf16.bits < FTy.f32.bits)
    (hx hy : (⟨2, ![M, K]⟩ : Shape).ShapeCasts ⟨2, ![M, K]⟩)
    (hc : (⟨2, ![1, N]⟩ : Shape).ShapeCasts ⟨2, ![1, N]⟩) (hb : (⟨2, ![1, N]⟩ : Shape).Broadcasts ⟨2, ![M, N]⟩) :
    maximumf (addf (addf
          (matmul (F := Ideal) (DotDims.plain M K N) none (truncf .bf16 (shapeCast ⟨2, ![M, K]⟩ x hx) h1) (truncf .bf16 wl h2)
            (constant ⟨2, ![M, N]⟩ .f32 0x00000000#32))
          (matmul (F := Ideal) (DotDims.plain M K N) none (truncf .bf16 (shapeCast ⟨2, ![M, K]⟩ y hy) h3) (truncf .bf16 wr h4)
            (constant ⟨2, ![M, N]⟩ .f32 0x00000000#32)))
        (broadcastTo ⟨2, ![M, N]⟩ (shapeCast ⟨2, ![1, N]⟩ r hc) hb))
      (broadcast ⟨2, ![M, N]⟩ (Scalar.ofBits (F := Ideal) .f32 0x00000000#32))
      = affineRelu M K N x y wl wr b := by
  funext i
  rw [maximumf_apply, broadcast_apply, affine_of_matmul M K N x y wl wr r b hr h1 h2 h3 h4 hx hy hc hb, affineRelu_apply]
  exact congrArg (max _) Ideal.ofBits_zero_f32

/-- The host's spelling of the stage. -/
theorem affine_of_dotGeneral (x y : FVec Ideal ⟨2, ![M, K]⟩ .f32) (wl wr : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (addf (Host.dotGeneral (F := Ideal) (DotDims.plain M K N) none x wl) (Host.dotGeneral (F := Ideal) (DotDims.plain M K N) none y wr))
      (broadcastInDim ⟨2, ![M, N]⟩ ![0, 1] h2 (broadcastInDim ⟨2, ![1, N]⟩ ![1] h1 b))
      = affine M K N x y wl wr b := by
  funext i
  obtain ⟨a, c, rfl⟩ : ∃ (a : Fin M) (c : Fin N), i = ix2 a c := ⟨i 0, i 1, eq_ix2 i⟩
  rw [addf_apply, addf_apply, Cert.LibPlainDot.dotGeneral_plain, Cert.LibPlainDot.dotGeneral_plain,
    Cert.LibHostBroadcast.vec_along_cols, affine_apply]
  rfl

theorem affineRelu_of_dotGeneral (x y : FVec Ideal ⟨2, ![M, K]⟩ .f32) (wl wr : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (addf (Host.dotGeneral (F := Ideal) (DotDims.plain M K N) none x wl)
          (Host.dotGeneral (F := Ideal) (DotDims.plain M K N) none y wr))
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
      = affineRelu M K N x y wl wr b := by
  funext i
  rw [maximumf_apply, affine_of_dotGeneral M K N x y wl wr b h1 h2, affineRelu_apply,
    Cert.LibHostBroadcast.scalar_to_any, constant_apply]
  exact congrArg (max _) Ideal.ofBits_zero_f32

end Cert.LibSageStage

end
-- ==== Proof.Region0.lean ====
/-
  The first kernel region: what its result array holds when the region ends.
  The region tiles the 60000 rows of its two row operands over 30 grid points, 2000 rows each; the two 300×512 weights and the
  one-row bias are whole at every point. At a point the body computes, for its rows, (a, c) ↦ (Σ_k x(a,k)·wl(k,c) +
  Σ_k y(a,k)·wr(k,c)) + b(c), cut off below at 0 on the extended reals (the narrowing of the operands to a 16-bit format is the identity
  there), and writes the 2000×512 block back. A row of that depends only on the same row of x and y, so each block written
  back is that block of the same expression of the whole arrays; the blocks tile the result array; hence the array ends at
  that expression of the arrays the region finds.
-/
import proofs.«152725_j60292750902065_1_alg».proof.Proof.Gen.KernelIdeal.Frame
import proofs.«152725_j60292750902065_1_alg».proof.Proof.LibSageStage
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the arrays it finds: the stage of the two row operands, the two weights and the
    vector the bias row holds. -/
def G (c : Dev nD) : FVec Ideal ⟨2, ![60000, 512]⟩ .f32 :=
  Cert.LibSageStage.affineRelu 60000 300 512 (V c main_v19) (V c main_v0) (V c main_arg7) (V c main_arg8) (Cert.LibSageStage.rowVec 512 (V c main_v20))

/-- The body's arithmetic on its loaded blocks is the stage of those blocks. -/
theorem pay_eq (x0 x1 : Vec Ideal S2000x300 .f32) (x2 x3 : Vec Ideal S300x512 .f32) (x4 : Vec Ideal S1x512 .f32) :
    k0_pay1 (F := Ideal) x0 x1 x2 x3 x4
      = Cert.LibSageStage.affineRelu 2000 300 512 x0 x1 x2 x3 (Cert.LibSageStage.rowVec 512 x4) :=
  Cert.LibSageStage.affineRelu_of_matmul 2000 300 512 x0 x1 x2 x3 x4 (Cert.LibSageStage.rowVec 512 x4) (fun _ => rfl) _ _ _ _ _ _ _ _

/-- The printed index maps over the grid: the row operands' blocks move with the result's along the rows, the weights' and the
    bias's blocks stay at the origin, and the result's column block is the only one. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 29 :=
  (by decide +kernel : ∀ t : Fin grid0.N, _)

/-- Every row block is some point's. -/
theorem idx_onto : ∀ q0 : Fin 30, ∃ t : Fin cfg0.N, win0_5.index t = ![q0.val, 0] :=
  (by decide +kernel : ∀ q0 : Fin 30, ∃ t : Fin grid0.N, win0_5.index t = ![q0.val, 0])

/-- What a point writes back is its block of the stage of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x300) hz, View.ld_unit_zero (S := S300x512) hz, View.ld_unit_zero (S := S1x512) hz]
  rw [pay_eq]
  obtain ⟨e0, e1, e2, e3, e4, e5, e6, e7, e8, e9, e10, e11⟩ := idx_facts t
  refine funext fun (j : S2000x512.Idx) => ?_
  obtain ⟨p, q, rfl⟩ : ∃ (p : Fin 2000) (q : Fin 512), j = ix2 p q := ⟨j 0, j 1, eq_ix2 j⟩
  have hp : p.val < 2000 := p.isLt
  have hrow : win0_5.index t (0 : Fin 2) * 2000 + p.val < 60000 := by omega
  have hq : ((cfg0.win 5).blk t).view.emb (ix2 p q) = ix2 (⟨win0_5.index t (0 : Fin 2) * 2000 + p.val, hrow⟩ : Fin 60000) q := by
    funext a; apply Fin.ext
    match a with
    | ⟨0, _⟩ => show win0_5.index t (0 : Fin 2) * 2000 + 1 * p.val = win0_5.index t (0 : Fin 2) * 2000 + p.val; omega
    | ⟨1, _⟩ => show win0_5.index t (1 : Fin 2) * 512 + 1 * q.val = q.val; omega
  show Cert.LibSageStage.affineRelu 2000 300 512 (iblk0 V c 0 t) (iblk0 V c 1 t) (iblk0 V c 2 t) (iblk0 V c 3 t)
      (Cert.LibSageStage.rowVec 512 (iblk0 V c 4 t)) (ix2 p q) = G V c (((cfg0.win 5).blk t).view.emb (ix2 p q))
  rw [hq]
  unfold G
  refine Cert.LibSageStage.affineRelu_congr 60000 300 512 2000 (V c main_v19) (V c main_v0) (iblk0 V c 0 t) (iblk0 V c 1 t)
    (V c main_arg7) (V c main_arg8) (iblk0 V c 2 t) (iblk0 V c 3 t)
    (Cert.LibSageStage.rowVec 512 (V c main_v20)) (Cert.LibSageStage.rowVec 512 (iblk0 V c 4 t))
    (⟨win0_5.index t (0 : Fin 2) * 2000 + p.val, hrow⟩ : Fin 60000) p q ?_ ?_ ?_ ?_ ?_
  · intro kk
    show V c main_v19 (((cfg0.win 0).blk t).view.emb (ix2 p kk)) = V c main_v19 (ix2 (⟨win0_5.index t (0 : Fin 2) * 2000 + p.val, hrow⟩ : Fin 60000) kk)
    refine congrArg _ (funext fun a => Fin.ext ?_)
    match a with
    | ⟨0, _⟩ => show win0_0.index t (0 : Fin 2) * 2000 + 1 * p.val = win0_5.index t (0 : Fin 2) * 2000 + p.val; omega
    | ⟨1, _⟩ => show win0_0.index t (1 : Fin 2) * 300 + 1 * kk.val = kk.val; omega
  · intro kk
    show V c main_v0 (((cfg0.win 1).blk t).view.emb (ix2 p kk)) = V c main_v0 (ix2 (⟨win0_5.index t (0 : Fin 2) * 2000 + p.val, hrow⟩ : Fin 60000) kk)
    refine congrArg _ (funext fun a => Fin.ext ?_)
    match a with
    | ⟨0, _⟩ => show win0_1.index t (0 : Fin 2) * 2000 + 1 * p.val = win0_5.index t (0 : Fin 2) * 2000 + p.val; omega
    | ⟨1, _⟩ => show win0_1.index t (1 : Fin 2) * 300 + 1 * kk.val = kk.val; omega
  · intro kk
    show V c main_arg7 (((cfg0.win 2).blk t).view.emb (ix2 kk q)) = V c main_arg7 (ix2 kk q)
    refine congrArg _ (funext fun a => Fin.ext ?_)
    match a with
    | ⟨0, _⟩ => show win0_2.index t (0 : Fin 2) * 300 + 1 * kk.val = kk.val; omega
    | ⟨1, _⟩ => show win0_2.index t (1 : Fin 2) * 512 + 1 * q.val = q.val; omega
  · intro kk
    show V c main_arg8 (((cfg0.win 3).blk t).view.emb (ix2 kk q)) = V c main_arg8 (ix2 kk q)
    refine congrArg _ (funext fun a => Fin.ext ?_)
    match a with
    | ⟨0, _⟩ => show win0_3.index t (0 : Fin 2) * 300 + 1 * kk.val = kk.val; omega
    | ⟨1, _⟩ => show win0_3.index t (1 : Fin 2) * 512 + 1 * q.val = q.val; omega
  · show V c main_v20 (((cfg0.win 4).blk t).view.emb (ix2 (0 : Fin 1) q)) = V c main_v20 (ix2 (0 : Fin 1) q)
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * q.val = q.val; omega

/-- An index of the result array is in a point's block iff each coordinate is in the block's range on its axis. -/
theorem mem_blk (t : Fin cfg0.N) (i : S60000x512.Idx) :
    i ∈ ((cfg0.win 5).blk t).view.set ↔ ∀ a : Fin 2, win0_5.index t a * S2000x512.size a ≤ (i a).val ∧ (i a).val < win0_5.index t a * S2000x512.size a + S2000x512.size a := by
  show i ∈ ((View.whole main_v21).slice (win0_5.rect t)).set ↔ _
  rw [View.set_slice_whole, Rect.mem_set_unit]
  exact Iff.rfl

/-- The blocks tile the result array: row r is in the block of point r / 2000. -/
theorem cover (i : S60000x512.Idx) : ∃ t : Fin cfg0.N, (cfg0.win 5).flush t = true ∧ i ∈ ((cfg0.win 5).blk t).view.set := by
  have hi0 : (i 0).val < 60000 := (i 0).isLt
  have hi1 : (i 1).val < 512 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 512 ≤ (i 1).val ∧ (i 1).val < win0_5.index t (1 : Fin 2) * 512 + 512; omega

/-- The result array when the region ends: the stage of the arrays the region finds. -/
theorem final (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  The second kernel region: what its result array holds when the region ends.
  The region tiles the 12000 rows of its two row operands over 12 grid points, 1000 rows each; the two 512×512 weights and the
  one-row bias are whole at every point. At a point the body computes, for its rows, (a, c) ↦ (Σ_k x(a,k)·wl(k,c) +
  Σ_k y(a,k)·wr(k,c)) + b(c), cut off below at 0 on the extended reals (the narrowing of the operands to a 16-bit format is the identity
  there), and writes the 1000×512 block back. A row of that depends only on the same row of x and y, so each block written
  back is that block of the same expression of the whole arrays; the blocks tile the result array; hence the array ends at
  that expression of the arrays the region finds.
-/
import proofs.«152725_j60292750902065_1_alg».proof.Proof.Gen.KernelIdeal.Frame
import proofs.«152725_j60292750902065_1_alg».proof.Proof.LibSageStage
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the arrays it finds: the stage of the two row operands, the two weights and the
    vector the bias row holds. -/
def G (c : Dev nD) : FVec Ideal ⟨2, ![12000, 512]⟩ .f32 :=
  Cert.LibSageStage.affineRelu 12000 512 512 (V c main_v41) (V c main_v22) (V c main_arg10) (V c main_arg11) (Cert.LibSageStage.rowVec 512 (V c main_v42))

/-- The body's arithmetic on its loaded blocks is the stage of those blocks. -/
theorem pay_eq (x0 x1 : Vec Ideal S1000x512 .f32) (x2 x3 : Vec Ideal S512x512 .f32) (x4 : Vec Ideal S1x512 .f32) :
    k1_pay1 (F := Ideal) x0 x1 x2 x3 x4
      = Cert.LibSageStage.affineRelu 1000 512 512 x0 x1 x2 x3 (Cert.LibSageStage.rowVec 512 x4) :=
  Cert.LibSageStage.affineRelu_of_matmul 1000 512 512 x0 x1 x2 x3 x4 (Cert.LibSageStage.rowVec 512 x4) (fun _ => rfl) _ _ _ _ _ _ _ _

/-- The printed index maps over the grid: the row operands' blocks move with the result's along the rows, the weights' and the
    bias's blocks stay at the origin, and the result's column block is the only one. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 11 :=
  (by decide +kernel : ∀ t : Fin grid1.N, _)

/-- Every row block is some point's. -/
theorem idx_onto : ∀ q0 : Fin 12, ∃ t : Fin cfg1.N, win1_5.index t = ![q0.val, 0] :=
  (by decide +kernel : ∀ q0 : Fin 12, ∃ t : Fin grid1.N, win1_5.index t = ![q0.val, 0])

/-- What a point writes back is its block of the stage of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S1000x512) hz, View.ld_unit_zero (S := S512x512) hz, View.ld_unit_zero (S := S1x512) hz]
  rw [pay_eq]
  obtain ⟨e0, e1, e2, e3, e4, e5, e6, e7, e8, e9, e10, e11⟩ := idx_facts t
  refine funext fun (j : S1000x512.Idx) => ?_
  obtain ⟨p, q, rfl⟩ : ∃ (p : Fin 1000) (q : Fin 512), j = ix2 p q := ⟨j 0, j 1, eq_ix2 j⟩
  have hp : p.val < 1000 := p.isLt
  have hrow : win1_5.index t (0 : Fin 2) * 1000 + p.val < 12000 := by omega
  have hq : ((cfg1.win 5).blk t).view.emb (ix2 p q) = ix2 (⟨win1_5.index t (0 : Fin 2) * 1000 + p.val, hrow⟩ : Fin 12000) q := by
    funext a; apply Fin.ext
    match a with
    | ⟨0, _⟩ => show win1_5.index t (0 : Fin 2) * 1000 + 1 * p.val = win1_5.index t (0 : Fin 2) * 1000 + p.val; omega
    | ⟨1, _⟩ => show win1_5.index t (1 : Fin 2) * 512 + 1 * q.val = q.val; omega
  show Cert.LibSageStage.affineRelu 1000 512 512 (iblk1 V c 0 t) (iblk1 V c 1 t) (iblk1 V c 2 t) (iblk1 V c 3 t)
      (Cert.LibSageStage.rowVec 512 (iblk1 V c 4 t)) (ix2 p q) = G V c (((cfg1.win 5).blk t).view.emb (ix2 p q))
  rw [hq]
  unfold G
  refine Cert.LibSageStage.affineRelu_congr 12000 512 512 1000 (V c main_v41) (V c main_v22) (iblk1 V c 0 t) (iblk1 V c 1 t)
    (V c main_arg10) (V c main_arg11) (iblk1 V c 2 t) (iblk1 V c 3 t)
    (Cert.LibSageStage.rowVec 512 (V c main_v42)) (Cert.LibSageStage.rowVec 512 (iblk1 V c 4 t))
    (⟨win1_5.index t (0 : Fin 2) * 1000 + p.val, hrow⟩ : Fin 12000) p q ?_ ?_ ?_ ?_ ?_
  · intro kk
    show V c main_v41 (((cfg1.win 0).blk t).view.emb (ix2 p kk)) = V c main_v41 (ix2 (⟨win1_5.index t (0 : Fin 2) * 1000 + p.val, hrow⟩ : Fin 12000) kk)
    refine congrArg _ (funext fun a => Fin.ext ?_)
    match a with
    | ⟨0, _⟩ => show win1_0.index t (0 : Fin 2) * 1000 + 1 * p.val = win1_5.index t (0 : Fin 2) * 1000 + p.val; omega
    | ⟨1, _⟩ => show win1_0.index t (1 : Fin 2) * 512 + 1 * kk.val = kk.val; omega
  · intro kk
    show V c main_v22 (((cfg1.win 1).blk t).view.emb (ix2 p kk)) = V c main_v22 (ix2 (⟨win1_5.index t (0 : Fin 2) * 1000 + p.val, hrow⟩ : Fin 12000) kk)
    refine congrArg _ (funext fun a => Fin.ext ?_)
    match a with
    | ⟨0, _⟩ => show win1_1.index t (0 : Fin 2) * 1000 + 1 * p.val = win1_5.index t (0 : Fin 2) * 1000 + p.val; omega
    | ⟨1, _⟩ => show win1_1.index t (1 : Fin 2) * 512 + 1 * kk.val = kk.val; omega
  · intro kk
    show V c main_arg10 (((cfg1.win 2).blk t).view.emb (ix2 kk q)) = V c main_arg10 (ix2 kk q)
    refine congrArg _ (funext fun a => Fin.ext ?_)
    match a with
    | ⟨0, _⟩ => show win1_2.index t (0 : Fin 2) * 512 + 1 * kk.val = kk.val; omega
    | ⟨1, _⟩ => show win1_2.index t (1 : Fin 2) * 512 + 1 * q.val = q.val; omega
  · intro kk
    show V c main_arg11 (((cfg1.win 3).blk t).view.emb (ix2 kk q)) = V c main_arg11 (ix2 kk q)
    refine congrArg _ (funext fun a => Fin.ext ?_)
    match a with
    | ⟨0, _⟩ => show win1_3.index t (0 : Fin 2) * 512 + 1 * kk.val = kk.val; omega
    | ⟨1, _⟩ => show win1_3.index t (1 : Fin 2) * 512 + 1 * q.val = q.val; omega
  · show V c main_v42 (((cfg1.win 4).blk t).view.emb (ix2 (0 : Fin 1) q)) = V c main_v42 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 512 + 1 * q.val = q.val; omega

/-- An index of the result array is in a point's block iff each coordinate is in the block's range on its axis. -/
theorem mem_blk (t : Fin cfg1.N) (i : S12000x512.Idx) :
    i ∈ ((cfg1.win 5).blk t).view.set ↔ ∀ a : Fin 2, win1_5.index t a * S1000x512.size a ≤ (i a).val ∧ (i a).val < win1_5.index t a * S1000x512.size a + S1000x512.size a := by
  show i ∈ ((View.whole main_v43).slice (win1_5.rect t)).set ↔ _
  rw [View.set_slice_whole, Rect.mem_set_unit]
  exact Iff.rfl

/-- The blocks tile the result array: row r is in the block of point r / 1000. -/
theorem cover (i : S12000x512.Idx) : ∃ t : Fin cfg1.N, (cfg1.win 5).flush t = true ∧ i ∈ ((cfg1.win 5).blk t).view.set := by
  have hi0 : (i 0).val < 12000 := (i 0).isLt
  have hi1 : (i 1).val < 512 := (i 1).isLt
  obtain ⟨t, ht⟩ := idx_onto ⟨(i 0).val / 1000, by omega⟩
  have q0 : win1_5.index t (0 : Fin 2) = (i 0).val / 1000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 512 ≤ (i 1).val ∧ (i 1).val < win1_5.index t (1 : Fin 2) * 512 + 512; omega

/-- The result array when the region ends: the stage of the arrays the region finds. -/
theorem final (c : Dev nD) : (dat1 V c).arrAt 5 cfg1.N = G V c :=
  (dat1 V c).arrAt_eq_of_cover 5 (G V c) (fun t _ => flushed_eq V c t) cover

end Cert.KernelIdeal.Region1

end
-- ==== Proof.Region2.lean ====
/-
  The third kernel region: what its result array holds when the region ends.
  The region tiles the 4096 rows of its two row operands over 4 grid points, 1024 rows each; the two 512×256 weights and the
  one-row bias are whole at every point. At a point the body computes, for its rows, (a, c) ↦ (Σ_k x(a,k)·wl(k,c) +
  Σ_k y(a,k)·wr(k,c)) + b(c) on the extended reals (the narrowing of the operands to a 16-bit format is the identity
  there), and writes the 1024×256 block back. A row of that depends only on the same row of x and y, so each block written
  back is that block of the same expression of the whole arrays; the blocks tile the result array; hence the array ends at
  that expression of the arrays the region finds.
-/
import proofs.«152725_j60292750902065_1_alg».proof.Proof.Gen.KernelIdeal.Frame
import proofs.«152725_j60292750902065_1_alg».proof.Proof.LibSageStage
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the arrays it finds: the stage of the two row operands, the two weights and the
    vector the bias row holds. -/
def G (c : Dev nD) : FVec Ideal ⟨2, ![4096, 256]⟩ .f32 :=
  Cert.LibSageStage.affine 4096 512 256 (V c main_v63) (V c main_v44) (V c main_arg13) (V c main_arg14) (Cert.LibSageStage.rowVec 256 (V c main_v64))

/-- The body's arithmetic on its loaded blocks is the stage of those blocks. -/
theorem pay_eq (x0 x1 : Vec Ideal S1024x512 .f32) (x2 x3 : Vec Ideal S512x256 .f32) (x4 : Vec Ideal S1x256 .f32) :
    k2_pay1 (F := Ideal) x0 x1 x2 x3 x4
      = Cert.LibSageStage.affine 1024 512 256 x0 x1 x2 x3 (Cert.LibSageStage.rowVec 256 x4) :=
  Cert.LibSageStage.affine_of_matmul 1024 512 256 x0 x1 x2 x3 x4 (Cert.LibSageStage.rowVec 256 x4) (fun _ => rfl) _ _ _ _ _ _ _ _

/-- The printed index maps over the grid: the row operands' blocks move with the result's along the rows, the weights' and the
    bias's blocks stay at the origin, and the result's column block is the only one. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 3 :=
  (by decide +kernel : ∀ t : Fin grid2.N, _)

/-- Every row block is some point's. -/
theorem idx_onto : ∀ q0 : Fin 4, ∃ t : Fin cfg2.N, win2_5.index t = ![q0.val, 0] :=
  (by decide +kernel : ∀ q0 : Fin 4, ∃ t : Fin grid2.N, win2_5.index t = ![q0.val, 0])

/-- What a point writes back is its block of the stage of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S1024x512) hz, View.ld_unit_zero (S := S512x256) hz, View.ld_unit_zero (S := S1x256) hz]
  rw [pay_eq]
  obtain ⟨e0, e1, e2, e3, e4, e5, e6, e7, e8, e9, e10, e11⟩ := idx_facts t
  refine funext fun (j : S1024x256.Idx) => ?_
  obtain ⟨p, q, rfl⟩ : ∃ (p : Fin 1024) (q : Fin 256), j = ix2 p q := ⟨j 0, j 1, eq_ix2 j⟩
  have hp : p.val < 1024 := p.isLt
  have hrow : win2_5.index t (0 : Fin 2) * 1024 + p.val < 4096 := by omega
  have hq : ((cfg2.win 5).blk t).view.emb (ix2 p q) = ix2 (⟨win2_5.index t (0 : Fin 2) * 1024 + p.val, hrow⟩ : Fin 4096) q := by
    funext a; apply Fin.ext
    match a with
    | ⟨0, _⟩ => show win2_5.index t (0 : Fin 2) * 1024 + 1 * p.val = win2_5.index t (0 : Fin 2) * 1024 + p.val; omega
    | ⟨1, _⟩ => show win2_5.index t (1 : Fin 2) * 256 + 1 * q.val = q.val; omega
  show Cert.LibSageStage.affine 1024 512 256 (iblk2 V c 0 t) (iblk2 V c 1 t) (iblk2 V c 2 t) (iblk2 V c 3 t)
      (Cert.LibSageStage.rowVec 256 (iblk2 V c 4 t)) (ix2 p q) = G V c (((cfg2.win 5).blk t).view.emb (ix2 p q))
  rw [hq]
  unfold G
  refine Cert.LibSageStage.affine_congr 4096 512 256 1024 (V c main_v63) (V c main_v44) (iblk2 V c 0 t) (iblk2 V c 1 t)
    (V c main_arg13) (V c main_arg14) (iblk2 V c 2 t) (iblk2 V c 3 t)
    (Cert.LibSageStage.rowVec 256 (V c main_v64)) (Cert.LibSageStage.rowVec 256 (iblk2 V c 4 t))
    (⟨win2_5.index t (0 : Fin 2) * 1024 + p.val, hrow⟩ : Fin 4096) p q ?_ ?_ ?_ ?_ ?_
  · intro kk
    show V c main_v63 (((cfg2.win 0).blk t).view.emb (ix2 p kk)) = V c main_v63 (ix2 (⟨win2_5.index t (0 : Fin 2) * 1024 + p.val, hrow⟩ : Fin 4096) kk)
    refine congrArg _ (funext fun a => Fin.ext ?_)
    match a with
    | ⟨0, _⟩ => show win2_0.index t (0 : Fin 2) * 1024 + 1 * p.val = win2_5.index t (0 : Fin 2) * 1024 + p.val; omega
    | ⟨1, _⟩ => show win2_0.index t (1 : Fin 2) * 512 + 1 * kk.val = kk.val; omega
  · intro kk
    show V c main_v44 (((cfg2.win 1).blk t).view.emb (ix2 p kk)) = V c main_v44 (ix2 (⟨win2_5.index t (0 : Fin 2) * 1024 + p.val, hrow⟩ : Fin 4096) kk)
    refine congrArg _ (funext fun a => Fin.ext ?_)
    match a with
    | ⟨0, _⟩ => show win2_1.index t (0 : Fin 2) * 1024 + 1 * p.val = win2_5.index t (0 : Fin 2) * 1024 + p.val; omega
    | ⟨1, _⟩ => show win2_1.index t (1 : Fin 2) * 512 + 1 * kk.val = kk.val; omega
  · intro kk
    show V c main_arg13 (((cfg2.win 2).blk t).view.emb (ix2 kk q)) = V c main_arg13 (ix2 kk q)
    refine congrArg _ (funext fun a => Fin.ext ?_)
    match a with
    | ⟨0, _⟩ => show win2_2.index t (0 : Fin 2) * 512 + 1 * kk.val = kk.val; omega
    | ⟨1, _⟩ => show win2_2.index t (1 : Fin 2) * 256 + 1 * q.val = q.val; omega
  · intro kk
    show V c main_arg14 (((cfg2.win 3).blk t).view.emb (ix2 kk q)) = V c main_arg14 (ix2 kk q)
    refine congrArg _ (funext fun a => Fin.ext ?_)
    match a with
    | ⟨0, _⟩ => show win2_3.index t (0 : Fin 2) * 512 + 1 * kk.val = kk.val; omega
    | ⟨1, _⟩ => show win2_3.index t (1 : Fin 2) * 256 + 1 * q.val = q.val; omega
  · show V c main_v64 (((cfg2.win 4).blk t).view.emb (ix2 (0 : Fin 1) q)) = V c main_v64 (ix2 (0 : Fin 1) q)
    refine congrArg _ (funext fun a => Fin.ext ?_)
    match a with
    | ⟨0, _⟩ => show win2_4.index t (0 : Fin 2) * 1 + 1 * 0 = 0; omega
    | ⟨1, _⟩ => show win2_4.index t (1 : Fin 2) * 256 + 1 * q.val = q.val; omega

/-- An index of the result array is in a point's block iff each coordinate is in the block's range on its axis. -/
theorem mem_blk (t : Fin cfg2.N) (i : S4096x256.Idx) :
    i ∈ ((cfg2.win 5).blk t).view.set ↔ ∀ a : Fin 2, win2_5.index t a * S1024x256.size a ≤ (i a).val ∧ (i a).val < win2_5.index t a * S1024x256.size a + S1024x256.size a := by
  show i ∈ ((View.whole main_v65).slice (win2_5.rect t)).set ↔ _
  rw [View.set_slice_whole, Rect.mem_set_unit]
  exact Iff.rfl

/-- The blocks tile the result array: row r is in the block of point r / 1024. -/
theorem cover (i : S4096x256.Idx) : ∃ t : Fin cfg2.N, (cfg2.win 5).flush t = true ∧ i ∈ ((cfg2.win 5).blk t).view.set := by
  have hi0 : (i 0).val < 4096 := (i 0).isLt
  have hi1 : (i 1).val < 256 := (i 1).isLt
  obtain ⟨t, ht⟩ := idx_onto ⟨(i 0).val / 1024, by omega⟩
  have q0 : win2_5.index t (0 : Fin 2) = (i 0).val / 1024 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 256 ≤ (i 1).val ∧ (i 1).val < win2_5.index t (1 : Fin 2) * 256 + 256; omega

/-- The result array when the region ends: the stage of the arrays the region finds. -/
theorem final (c : Dev nD) : (dat2 V c).arrAt 5 cfg2.N = G V c :=
  (dat2 V c).arrAt_eq_of_cover 5 (G V c) (fun t _ => flushed_eq V c t) cover

end Cert.KernelIdeal.Region2

end
-- ==== Proof.Layers.lean ====
/-
  The three graph-convolution layers as functions of arrays, on the extended reals.
  A layer takes node features h, the edges' source and destination node numbers, two weights and a bias. Its neighbour mean is:
  a negative source number wrapped by the number of nodes; the features' rows gathered at the sources; those rows summed
  into their destination nodes; the number of edges into each node counted the same way, raised to at least 1; and the
  quotient of the two. Its root rows are the first rows of h. The layer is then the dense stage
      (a, c) ↦ (Σ_k mean(a,k)·wl(k,c) + Σ_k root(a,k)·wr(k,c)) + b(c) ,
  cut off below at 0 in the first two layers. The host's spelling of that stage — two products, their sum, the bias made a row
  and spread over the rows, a maximum with a spread 0 — is the stage.
-/
import proofs.«152725_j60292750902065_1_alg».proof.Proof.Gen.ReferenceIdeal
import proofs.«152725_j60292750902065_1_alg».proof.Proof.LibSageStage

noncomputable section

namespace Cert.Sage

open Cert.ReferenceIdeal Cert.ReferenceIdeal.Gen Idealize.ShloMosaic Idealize.ShloMosaic.TcCoe Idealize.SL.Sem Idealize.ShloMosaic.StableHlo

/-! ## The first layer -/

/-- The neighbour mean: rows of h gathered at the (wrapped) sources, summed into their destinations, over the count of edges
    into each destination raised to at least 1. -/
def mean0 (h : FVec Ideal S300000x300 .f32) (src dst : IVec S720000 32) : FVec Ideal S60000x300 .f32 :=
  Host.divf (F := Ideal) (Host.scatterAdd (F := Ideal) scatter_S60000x300_S720000x1_S720000x300_1_0_0_1 (broadcastInDim S60000x300 ![] bcast_S_S60000x300 (constant (F := Ideal) S_ .f32 0x00000000#32)) (broadcastInDim S720000x1 ![0] bcast_S720000_S720000x1_0 dst) (Host.gather gather_S300000x300_S720000x1_S720000x300_1_0_n_n_0_1_1300 h (broadcastInDim S720000x1 ![0] bcast_S720000_S720000x1_0 (select (cmpi .slt src (broadcastInDim S720000 ![] bcast_S_S720000 (constantI S_ 32 0#32))) (addi src (broadcastInDim S720000 ![] bcast_S_S720000 (constantI S_ 32 300000#32))) src)))) (broadcastInDim S60000x300 ![0, 1] bcast_S60000x1_S60000x300_0_1 (broadcastInDim S60000x1 ![0] bcast_S60000_S60000x1_0 (maximumf (Host.scatterAdd (F := Ideal) scatter_S60000_S720000x1_S720000_n_0_0_1 (broadcastInDim S60000 ![] bcast_S_S60000 (constant (F := Ideal) S_ .f32 0x00000000#32)) (broadcastInDim S720000x1 ![0] bcast_S720000_S720000x1_0 dst) (broadcastInDim S720000 ![] bcast_S_S720000 (constant (F := Ideal) S_ .f32 0x3F800000#32))) (broadcastInDim S60000 ![] bcast_S_S60000 (constant (F := Ideal) S_ .f32 0x3F800000#32)))))

/-- The root rows: the first 60000 rows of h. -/
def rows0 (h : FVec Ideal S300000x300 .f32) : FVec Ideal S60000x300 .f32 :=
  extractStridedSlice S60000x300 ![0, 0] h slices_S300000x300_S60000x300_0_0

/-- The layer: the dense stage of the neighbour mean and the root rows. -/
def layer0 (h : FVec Ideal S300000x300 .f32) (src dst : IVec S720000 32) (wl wr : FVec Ideal S300x512 .f32) (b : FVec Ideal S512 .f32) :
    FVec Ideal S60000x512 .f32 :=
  Cert.LibSageStage.affineRelu 60000 300 512 (mean0 h src dst) (rows0 h) wl wr b

/-- The layer in the host's spelling. -/
def hostLayer0 (h : FVec Ideal S300000x300 .f32) (src dst : IVec S720000 32) (wl wr : FVec Ideal S300x512 .f32) (b : FVec Ideal S512 .f32) :
    FVec Ideal S60000x512 .f32 :=
  maximumf (addf (addf (Host.dotGeneral (F := Ideal) dot_S60000x300_S300x512_S60000x512_1_0_0_1_n_n none (mean0 h src dst) wl) (Host.dotGeneral (F := Ideal) dot_S60000x300_S300x512_S60000x512_1_0_0_1_n_n none (rows0 h) wr)) (broadcastInDim S60000x512 ![0, 1] bcast_S1x512_S60000x512_0_1 (broadcastInDim S1x512 ![1] bcast_S512_S1x512_1 b))) (broadcastInDim S60000x512 ![] bcast_S_S60000x512 (constant (F := Ideal) S_ .f32 0x00000000#32))

theorem hostLayer0_eq (h : FVec Ideal S300000x300 .f32) (src dst : IVec S720000 32) (wl wr : FVec Ideal S300x512 .f32) (b : FVec Ideal S512 .f32) :
    hostLayer0 h src dst wl wr b = layer0 h src dst wl wr b :=
  Cert.LibSageStage.affineRelu_of_dotGeneral 60000 300 512 (mean0 h src dst) (rows0 h) wl wr b _ _ _

/-! ## The second layer -/

/-- The neighbour mean: rows of h gathered at the (wrapped) sources, summed into their destinations, over the count of edges
    into each destination raised to at least 1. -/
def mean1 (h : FVec Ideal S60000x512 .f32) (src dst : IVec S144000 32) : FVec Ideal S12000x512 .f32 :=
  Host.divf (F := Ideal) (Host.scatterAdd (F := Ideal) scatter_S12000x512_S144000x1_S144000x512_1_0_0_1 (broadcastInDim S12000x512 ![] bcast_S_S12000x512 (constant (F := Ideal) S_ .f32 0x00000000#32)) (broadcastInDim S144000x1 ![0] bcast_S144000_S144000x1_0 dst) (Host.gather gather_S60000x512_S144000x1_S144000x512_1_0_n_n_0_1_1512 h (broadcastInDim S144000x1 ![0] bcast_S144000_S144000x1_0 (select (cmpi .slt src (broadcastInDim S144000 ![] bcast_S_S144000 (constantI S_ 32 0#32))) (addi src (broadcastInDim S144000 ![] bcast_S_S144000 (constantI S_ 32 60000#32))) src)))) (broadcastInDim S12000x512 ![0, 1] bcast_S12000x1_S12000x512_0_1 (broadcastInDim S12000x1 ![0] bcast_S12000_S12000x1_0 (maximumf (Host.scatterAdd (F := Ideal) scatter_S12000_S144000x1_S144000_n_0_0_1 (broadcastInDim S12000 ![] bcast_S_S12000 (constant (F := Ideal) S_ .f32 0x00000000#32)) (broadcastInDim S144000x1 ![0] bcast_S144000_S144000x1_0 dst) (broadcastInDim S144000 ![] bcast_S_S144000 (constant (F := Ideal) S_ .f32 0x3F800000#32))) (broadcastInDim S12000 ![] bcast_S_S12000 (constant (F := Ideal) S_ .f32 0x3F800000#32)))))

/-- The root rows: the first 12000 rows of h. -/
def rows1 (h : FVec Ideal S60000x512 .f32) : FVec Ideal S12000x512 .f32 :=
  extractStridedSlice S12000x512 ![0, 0] h slices_S60000x512_S12000x512_0_0

/-- The layer: the dense stage of the neighbour mean and the root rows. -/
def layer1 (h : FVec Ideal S60000x512 .f32) (src dst : IVec S144000 32) (wl wr : FVec Ideal S512x512 .f32) (b : FVec Ideal S512 .f32) :
    FVec Ideal S12000x512 .f32 :=
  Cert.LibSageStage.affineRelu 12000 512 512 (mean1 h src dst) (rows1 h) wl wr b

/-- The layer in the host's spelling. -/
def hostLayer1 (h : FVec Ideal S60000x512 .f32) (src dst : IVec S144000 32) (wl wr : FVec Ideal S512x512 .f32) (b : FVec Ideal S512 .f32) :
    FVec Ideal S12000x512 .f32 :=
  maximumf (addf (addf (Host.dotGeneral (F := Ideal) dot_S12000x512_S512x512_S12000x512_1_0_0_1_n_n none (mean1 h src dst) wl) (Host.dotGeneral (F := Ideal) dot_S12000x512_S512x512_S12000x512_1_0_0_1_n_n none (rows1 h) wr)) (broadcastInDim S12000x512 ![0, 1] bcast_S1x512_S12000x512_0_1 (broadcastInDim S1x512 ![1] bcast_S512_S1x512_1 b))) (broadcastInDim S12000x512 ![] bcast_S_S12000x512 (constant (F := Ideal) S_ .f32 0x00000000#32))

theorem hostLayer1_eq (h : FVec Ideal S60000x512 .f32) (src dst : IVec S144000 32) (wl wr : FVec Ideal S512x512 .f32) (b : FVec Ideal S512 .f32) :
    hostLayer1 h src dst wl wr b = layer1 h src dst wl wr b :=
  Cert.LibSageStage.affineRelu_of_dotGeneral 12000 512 512 (mean1 h src dst) (rows1 h) wl wr b _ _ _

/-! ## The third layer -/

/-- The neighbour mean: rows of h gathered at the (wrapped) sources, summed into their destinations, over the count of edges
    into each destination raised to at least 1. -/
def mean2 (h : FVec Ideal S12000x512 .f32) (src dst : IVec S49152 32) : FVec Ideal S4096x512 .f32 :=
  Host.divf (F := Ideal) (Host.scatterAdd (F := Ideal) scatter_S4096x512_S49152x1_S49152x512_1_0_0_1 (broadcastInDim S4096x512 ![] bcast_S_S4096x512 (constant (F := Ideal) S_ .f32 0x00000000#32)) (broadcastInDim S49152x1 ![0] bcast_S49152_S49152x1_0 dst) (Host.gather gather_S12000x512_S49152x1_S49152x512_1_0_n_n_0_1_1512 h (broadcastInDim S49152x1 ![0] bcast_S49152_S49152x1_0 (select (cmpi .slt src (broadcastInDim S49152 ![] bcast_S_S49152 (constantI S_ 32 0#32))) (addi src (broadcastInDim S49152 ![] bcast_S_S49152 (constantI S_ 32 12000#32))) src)))) (broadcastInDim S4096x512 ![0, 1] bcast_S4096x1_S4096x512_0_1 (broadcastInDim S4096x1 ![0] bcast_S4096_S4096x1_0 (maximumf (Host.scatterAdd (F := Ideal) scatter_S4096_S49152x1_S49152_n_0_0_1 (broadcastInDim S4096 ![] bcast_S_S4096 (constant (F := Ideal) S_ .f32 0x00000000#32)) (broadcastInDim S49152x1 ![0] bcast_S49152_S49152x1_0 dst) (broadcastInDim S49152 ![] bcast_S_S49152 (constant (F := Ideal) S_ .f32 0x3F800000#32))) (broadcastInDim S4096 ![] bcast_S_S4096 (constant (F := Ideal) S_ .f32 0x3F800000#32)))))

/-- The root rows: the first 4096 rows of h. -/
def rows2 (h : FVec Ideal S12000x512 .f32) : FVec Ideal S4096x512 .f32 :=
  extractStridedSlice S4096x512 ![0, 0] h slices_S12000x512_S4096x512_0_0

/-- The layer: the dense stage of the neighbour mean and the root rows. -/
def layer2 (h : FVec Ideal S12000x512 .f32) (src dst : IVec S49152 32) (wl wr : FVec Ideal S512x256 .f32) (b : FVec Ideal S256 .f32) :
    FVec Ideal S4096x256 .f32 :=
  Cert.LibSageStage.affine 4096 512 256 (mean2 h src dst) (rows2 h) wl wr b

/-- The layer in the host's spelling. -/
def hostLayer2 (h : FVec Ideal S12000x512 .f32) (src dst : IVec S49152 32) (wl wr : FVec Ideal S512x256 .f32) (b : FVec Ideal S256 .f32) :
    FVec Ideal S4096x256 .f32 :=
  addf (addf (Host.dotGeneral (F := Ideal) dot_S4096x512_S512x256_S4096x256_1_0_0_1_n_n none (mean2 h src dst) wl) (Host.dotGeneral (F := Ideal) dot_S4096x512_S512x256_S4096x256_1_0_0_1_n_n none (rows2 h) wr)) (broadcastInDim S4096x256 ![0, 1] bcast_S1x256_S4096x256_0_1 (broadcastInDim S1x256 ![1] bcast_S256_S1x256_1 b))

theorem hostLayer2_eq (h : FVec Ideal S12000x512 .f32) (src dst : IVec S49152 32) (wl wr : FVec Ideal S512x256 .f32) (b : FVec Ideal S256 .f32) :
    hostLayer2 h src dst wl wr b = layer2 h src dst wl wr b :=
  Cert.LibSageStage.affine_of_dotGeneral 4096 512 256 (mean2 h src dst) (rows2 h) wl wr b _ _

end Cert.Sage

end
-- ==== Proof.KernelValue.lean ====
/-
  The idealized kernel program's two results as functions of its arguments.
  The buffer contents at the boundaries of the program's segments are a fold from the launch memory. Read forward: the first
  stretch of host operations leaves the first region its operands — the first layer's neighbour mean and root rows of the
  features, the weights as launched, the bias reshaped to one row —, and the region leaves its result array at the dense
  stage of those: the first layer. The second stretch computes the second layer's operands from that array and the launch
  contents of the second layer's arguments, which nothing before it writes; the second region leaves the second layer of
  them; and so the third. Each result is the composition of the layers.
-/
import proofs.«152725_j60292750902065_1_alg».proof.Proof.KernelRun
import proofs.«152725_j60292750902065_1_alg».proof.Proof.Region0
import proofs.«152725_j60292750902065_1_alg».proof.Proof.Region1
import proofs.«152725_j60292750902065_1_alg».proof.Proof.Region2
import proofs.«152725_j60292750902065_1_alg».proof.Proof.Layers
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A stretch of host operations leaves a buffer none of them writes as it was. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The first layer -/

set_option maxHeartbeats 4000000 in
theorem mean_in0 (c : Dev nD) : V1 m ρ c main_v19 = Cert.Sage.mean0 (m ((c : Thread nD τ).loc main_arg0)) (m ((c : Thread nD τ).loc main_arg1)) (m ((c : Thread nD τ).loc main_arg2)) := by
  show StableHlo.after hostOps0 (W0 m ρ c) (Proc.devRef .tc main_v19) = _
  after_results_simp
  rfl

theorem rows_in0 (c : Dev nD) : V1 m ρ c main_v0 = Cert.Sage.rows0 (m ((c : Thread nD τ).loc main_arg0)) := by
  show StableHlo.after hostOps0 (W0 m ρ c) (Proc.devRef .tc main_v0) = _
  after_results
  rfl

theorem wl_in0 (c : Dev nD) : V1 m ρ c main_arg7 = (m ((c : Thread nD τ).loc main_arg7)) := by
  show StableHlo.after hostOps0 (W0 m ρ c) (Proc.devRef .tc main_arg7) = _
  host_keeps hostOps0

theorem wr_in0 (c : Dev nD) : V1 m ρ c main_arg8 = (m ((c : Thread nD τ).loc main_arg8)) := by
  show StableHlo.after hostOps0 (W0 m ρ c) (Proc.devRef .tc main_arg8) = _
  host_keeps hostOps0

theorem bias_in0 (c : Dev nD) : Cert.LibSageStage.rowVec 512 (V1 m ρ c main_v20) = (m ((c : Thread nD τ).loc main_arg9)) := by
  have e : V1 m ρ c main_v20 = shapeCast S1x512 (m ((c : Thread nD τ).loc main_arg9)) shapeCasts_S512_S1x512 := by
    show StableHlo.after hostOps0 (W0 m ρ c) (Proc.devRef .tc main_v20) = _
    after_results
    rfl
  rw [e]
  exact Cert.LibSageStage.rowVec_shapeCast 512 _ _

/-- The first region's result array at its exit: the first layer of the arguments. -/
theorem layer_out0 (c : Dev nD) :
    W2 m ρ c (Proc.devRef .tc main_v21) = Cert.Sage.layer0 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) := by
  refine (W2_arr m ρ c 5).trans ((Cert.KernelIdeal.Region0.final (V1 m ρ) c).trans ?_)
  unfold Cert.KernelIdeal.Region0.G
  rw [mean_in0, rows_in0, wl_in0, wr_in0, bias_in0]
  rfl

/-! ## The second layer -/

theorem W2_arg3 (c : Dev nD) : W2 m ρ c (Proc.devRef .tc main_arg3) = (m ((c : Thread nD τ).loc main_arg3)) :=
  (W2_of_ne m ρ c main_arg3 (by decide)).trans (by
    show StableHlo.after hostOps0 (W0 m ρ c) (Proc.devRef .tc main_arg3) = _
    host_keeps hostOps0)

theorem W2_arg4 (c : Dev nD) : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    host_keeps hostOps0)

theorem W2_arg10 (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    host_keeps hostOps0)

theorem W2_arg11 (c : Dev nD) : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    host_keeps hostOps0)

theorem W2_arg12 (c : Dev nD) : W2 m ρ c (Proc.devRef .tc main_arg12) = (m ((c : Thread nD τ).loc main_arg12)) :=
  (W2_of_ne m ρ c main_arg12 (by decide)).trans (by
    show StableHlo.after hostOps0 (W0 m ρ c) (Proc.devRef .tc main_arg12) = _
    host_keeps hostOps0)

theorem W2_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    host_keeps hostOps0)

theorem W2_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    host_keeps hostOps0)

theorem W2_arg13 (c : Dev nD) : W2 m ρ c (Proc.devRef .tc main_arg13) = (m ((c : Thread nD τ).loc main_arg13)) :=
  (W2_of_ne m ρ c main_arg13 (by decide)).trans (by
    show StableHlo.after hostOps0 (W0 m ρ c) (Proc.devRef .tc main_arg13) = _
    host_keeps hostOps0)

theorem W2_arg14 (c : Dev nD) : W2 m ρ c (Proc.devRef .tc main_arg14) = (m ((c : Thread nD τ).loc main_arg14)) :=
  (W2_of_ne m ρ c main_arg14 (by decide)).trans (by
    show StableHlo.after hostOps0 (W0 m ρ c) (Proc.devRef .tc main_arg14) = _
    host_keeps hostOps0)

theorem W2_arg15 (c : Dev nD) : W2 m ρ c (Proc.devRef .tc main_arg15) = (m ((c : Thread nD τ).loc main_arg15)) :=
  (W2_of_ne m ρ c main_arg15 (by decide)).trans (by
    show StableHlo.after hostOps0 (W0 m ρ c) (Proc.devRef .tc main_arg15) = _
    host_keeps hostOps0)

set_option maxHeartbeats 4000000 in
theorem mean_in1 (c : Dev nD) : V3 m ρ c main_v41
    = Cert.Sage.mean1 (W2 m ρ c (Proc.devRef .tc main_v21)) (W2 m ρ c (Proc.devRef .tc main_arg3)) (W2 m ρ c (Proc.devRef .tc main_arg4)) := by
  show StableHlo.after hostOps1 (W2 m ρ c) (Proc.devRef .tc main_v41) = _
  after_results_simp
  rfl

theorem rows_in1 (c : Dev nD) : V3 m ρ c main_v22 = Cert.Sage.rows1 (W2 m ρ c (Proc.devRef .tc main_v21)) := by
  show StableHlo.after hostOps1 (W2 m ρ c) (Proc.devRef .tc main_v22) = _
  after_results
  rfl

theorem wl_in1 (c : Dev nD) : V3 m ρ c main_arg10 = (m ((c : Thread nD τ).loc main_arg10)) :=
  (show StableHlo.after hostOps1 (W2 m ρ c) (Proc.devRef .tc main_arg10) = W2 m ρ c (Proc.devRef .tc main_arg10) from by
    host_keeps hostOps1).trans (W2_arg10 m ρ c)

theorem wr_in1 (c : Dev nD) : V3 m ρ c main_arg11 = (m ((c : Thread nD τ).loc main_arg11)) :=
  (show StableHlo.after hostOps1 (W2 m ρ c) (Proc.devRef .tc main_arg11) = W2 m ρ c (Proc.devRef .tc main_arg11) from by
    host_keeps hostOps1).trans (W2_arg11 m ρ c)

theorem bias_in1 (c : Dev nD) : Cert.LibSageStage.rowVec 512 (V3 m ρ c main_v42) = (m ((c : Thread nD τ).loc main_arg12)) := by
  have e : V3 m ρ c main_v42 = shapeCast S1x512 (W2 m ρ c (Proc.devRef .tc main_arg12)) shapeCasts_S512_S1x512 := by
    show StableHlo.after hostOps1 (W2 m ρ c) (Proc.devRef .tc main_v42) = _
    after_results
    rfl
  rw [e, W2_arg12]
  exact Cert.LibSageStage.rowVec_shapeCast 512 _ _

/-- The second region's result array at its exit: the second layer of the first. -/
theorem layer_out1 (c : Dev nD) : W4 m ρ c (Proc.devRef .tc main_v43) = (Cert.Sage.layer1 (Cert.Sage.layer0 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9))) (m ((c : Thread nD τ).loc main_arg3)) (m ((c : Thread nD τ).loc main_arg4)) (m ((c : Thread nD τ).loc main_arg10)) (m ((c : Thread nD τ).loc main_arg11)) (m ((c : Thread nD τ).loc main_arg12))) := by
  refine (W4_arr m ρ c 5).trans ((Cert.KernelIdeal.Region1.final (V3 m ρ) c).trans ?_)
  unfold Cert.KernelIdeal.Region1.G
  rw [mean_in1, rows_in1, wl_in1, wr_in1, bias_in1, layer_out0, W2_arg3, W2_arg4]
  rfl

/-! ## The third layer -/

theorem W4_arg5 (c : Dev nD) : W4 m ρ c (Proc.devRef .tc main_arg5) = (m ((c : Thread nD τ).loc main_arg5)) :=
  (W4_of_ne m ρ c main_arg5 (by decide)).trans
    ((show StableHlo.after hostOps1 (W2 m ρ c) (Proc.devRef .tc main_arg5) = W2 m ρ c (Proc.devRef .tc main_arg5) from by
      host_keeps hostOps1).trans (W2_arg5 m ρ c))

theorem W4_arg6 (c : Dev nD) : W4 m ρ c (Proc.devRef .tc main_arg6) = (m ((c : Thread nD τ).loc main_arg6)) :=
  (W4_of_ne m ρ c main_arg6 (by decide)).trans
    ((show StableHlo.after hostOps1 (W2 m ρ c) (Proc.devRef .tc main_arg6) = W2 m ρ c (Proc.devRef .tc main_arg6) from by
      host_keeps hostOps1).trans (W2_arg6 m ρ c))

theorem W4_arg13 (c : Dev nD) : W4 m ρ c (Proc.devRef .tc main_arg13) = (m ((c : Thread nD τ).loc main_arg13)) :=
  (W4_of_ne m ρ c main_arg13 (by decide)).trans
    ((show StableHlo.after hostOps1 (W2 m ρ c) (Proc.devRef .tc main_arg13) = W2 m ρ c (Proc.devRef .tc main_arg13) from by
      host_keeps hostOps1).trans (W2_arg13 m ρ c))

theorem W4_arg14 (c : Dev nD) : W4 m ρ c (Proc.devRef .tc main_arg14) = (m ((c : Thread nD τ).loc main_arg14)) :=
  (W4_of_ne m ρ c main_arg14 (by decide)).trans
    ((show StableHlo.after hostOps1 (W2 m ρ c) (Proc.devRef .tc main_arg14) = W2 m ρ c (Proc.devRef .tc main_arg14) from by
      host_keeps hostOps1).trans (W2_arg14 m ρ c))

theorem W4_arg15 (c : Dev nD) : W4 m ρ c (Proc.devRef .tc main_arg15) = (m ((c : Thread nD τ).loc main_arg15)) :=
  (W4_of_ne m ρ c main_arg15 (by decide)).trans
    ((show StableHlo.after hostOps1 (W2 m ρ c) (Proc.devRef .tc main_arg15) = W2 m ρ c (Proc.devRef .tc main_arg15) from by
      host_keeps hostOps1).trans (W2_arg15 m ρ c))

set_option maxHeartbeats 4000000 in
theorem mean_in2 (c : Dev nD) : V5 m ρ c main_v63
    = Cert.Sage.mean2 (W4 m ρ c (Proc.devRef .tc main_v43)) (W4 m ρ c (Proc.devRef .tc main_arg5)) (W4 m ρ c (Proc.devRef .tc main_arg6)) := by
  show StableHlo.after hostOps2 (W4 m ρ c) (Proc.devRef .tc main_v63) = _
  after_results_simp
  rfl

theorem rows_in2 (c : Dev nD) : V5 m ρ c main_v44 = Cert.Sage.rows2 (W4 m ρ c (Proc.devRef .tc main_v43)) := by
  show StableHlo.after hostOps2 (W4 m ρ c) (Proc.devRef .tc main_v44) = _
  after_results
  rfl

theorem wl_in2 (c : Dev nD) : V5 m ρ c main_arg13 = (m ((c : Thread nD τ).loc main_arg13)) :=
  (show StableHlo.after hostOps2 (W4 m ρ c) (Proc.devRef .tc main_arg13) = W4 m ρ c (Proc.devRef .tc main_arg13) from by
    host_keeps hostOps2).trans (W4_arg13 m ρ c)

theorem wr_in2 (c : Dev nD) : V5 m ρ c main_arg14 = (m ((c : Thread nD τ).loc main_arg14)) :=
  (show StableHlo.after hostOps2 (W4 m ρ c) (Proc.devRef .tc main_arg14) = W4 m ρ c (Proc.devRef .tc main_arg14) from by
    host_keeps hostOps2).trans (W4_arg14 m ρ c)

theorem bias_in2 (c : Dev nD) : Cert.LibSageStage.rowVec 256 (V5 m ρ c main_v64) = (m ((c : Thread nD τ).loc main_arg15)) := by
  have e : V5 m ρ c main_v64 = shapeCast S1x256 (W4 m ρ c (Proc.devRef .tc main_arg15)) shapeCasts_S256_S1x256 := by
    show StableHlo.after hostOps2 (W4 m ρ c) (Proc.devRef .tc main_v64) = _
    after_results
    rfl
  rw [e, W4_arg15]
  exact Cert.LibSageStage.rowVec_shapeCast 256 _ _

/-- The third region's result array at its exit: the third layer of the second of the first. -/
theorem layer_out2 (c : Dev nD) : W6 m ρ c (Proc.devRef .tc main_v65) = (Cert.Sage.layer2 (Cert.Sage.layer1 (Cert.Sage.layer0 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9))) (m ((c : Thread nD τ).loc main_arg3)) (m ((c : Thread nD τ).loc main_arg4)) (m ((c : Thread nD τ).loc main_arg10)) (m ((c : Thread nD τ).loc main_arg11)) (m ((c : Thread nD τ).loc main_arg12))) (m ((c : Thread nD τ).loc main_arg5)) (m ((c : Thread nD τ).loc main_arg6)) (m ((c : Thread nD τ).loc main_arg13)) (m ((c : Thread nD τ).loc main_arg14)) (m ((c : Thread nD τ).loc main_arg15))) := by
  refine (W6_arr m ρ c 5).trans ((Cert.KernelIdeal.Region2.final (V5 m ρ) c).trans ?_)
  unfold Cert.KernelIdeal.Region2.G
  rw [mean_in2, rows_in2, wl_in2, wr_in2, bias_in2, layer_out1, W4_arg5, W4_arg6]
  rfl

/-- The second region's result array is still the second layer at the end: the third stretch and the third region do not
    write it. -/
theorem mid_out (c : Dev nD) : W6 m ρ c (Proc.devRef .tc main_v43) = (Cert.Sage.layer1 (Cert.Sage.layer0 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9))) (m ((c : Thread nD τ).loc main_arg3)) (m ((c : Thread nD τ).loc main_arg4)) (m ((c : Thread nD τ).loc main_arg10)) (m ((c : Thread nD τ).loc main_arg11)) (m ((c : Thread nD τ).loc main_arg12))) :=
  (W6_of_ne m ρ c main_v43 (by decide)).trans
    ((show StableHlo.after hostOps2 (W4 m ρ c) (Proc.devRef .tc main_v43) = W4 m ρ c (Proc.devRef .tc main_v43) from by
      host_keeps hostOps2).trans (layer_out1 m ρ c))

/-! ## The run -/

/-- The last result as a function of the launch memory: the three layers composed. -/
def last (c : Dev nD) : Buf (Elt Ideal) ((c.tc : Thread nD τ).loc main_v65) :=
  Cert.Sage.layer2 (Cert.Sage.layer1 (Cert.Sage.layer0 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9))) (m ((c : Thread nD τ).loc main_arg3)) (m ((c : Thread nD τ).loc main_arg4)) (m ((c : Thread nD τ).loc main_arg10)) (m ((c : Thread nD τ).loc main_arg11)) (m ((c : Thread nD τ).loc main_arg12))) (m ((c : Thread nD τ).loc main_arg5)) (m ((c : Thread nD τ).loc main_arg6)) (m ((c : Thread nD τ).loc main_arg13)) (m ((c : Thread nD τ).loc main_arg14)) (m ((c : Thread nD τ).loc main_arg15))

/-- The middle result as a function of the launch memory: the first two layers composed. -/
def mid (c : Dev nD) : Buf (Elt Ideal) ((c.tc : Thread nD τ).loc main_v43) :=
  Cert.Sage.layer1 (Cert.Sage.layer0 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9))) (m ((c : Thread nD τ).loc main_arg3)) (m ((c : Thread nD τ).loc main_arg4)) (m ((c : Thread nD τ).loc main_arg10)) (m ((c : Thread nD τ).loc main_arg11)) (m ((c : Thread nD τ).loc main_arg12))

/-- Every weakly fair execution of the program terminates with the last result at the composition of the three layers, the
    middle result at the composition of the first two, and the arguments as launched. -/
theorem run : θ_run defs (onTc (τ := τ) (main (F := Ideal))) ⟨m, fun _ => 0, ρ⟩ (fun r => ∀ c : Dev nD,
      r.2.mem ((c.tc : Thread nD τ).loc main_v65) = last m c
      ∧ r.2.mem ((c.tc : Thread nD τ).loc main_v43) = mid m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (layer_out2 m ρ c), (h c).2.1.trans (mid_out m ρ c), (h c).2.2⟩)
    (run_results m ρ)

end Cert.KernelIdeal.Whole

end
-- ==== Proof.RefValue.lean ====
/-
  The idealized reference program's two results as functions of its arguments.
  The reference is one straight line of host operations; each result is the operations' composed term of the arguments. Cut at
  the layer boundaries, that term is the host's spelling of a layer applied to the previous layer's result and the layer's own
  arguments, and the host's spelling of a layer is the layer.
-/
import proofs.«152725_j60292750902065_1_alg».proof.Proof.Gen.ReferenceIdeal.Run
import proofs.«152725_j60292750902065_1_alg».proof.Proof.Layers

set_option maxRecDepth 16384

noncomputable section

namespace Cert.ReferenceIdeal.Layered

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

/-- The result of the middle layer: the second layer of the first. -/
theorem mid_eq (c : Dev nD) :
    Cert.ReferenceIdeal.Value.res_out2 (F := Ideal) m c = (Cert.Sage.layer1 (Cert.Sage.layer0 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))) (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12))) := by
  have h : Cert.ReferenceIdeal.Value.res_main_v53 (F := Ideal) m c = (Cert.Sage.hostLayer1 (Cert.Sage.hostLayer0 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))) (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12))) := rfl
  refine h.trans ?_
  rw [Cert.Sage.hostLayer0_eq, Cert.Sage.hostLayer1_eq]

/-- The result of the last layer: the third layer of the second of the first. -/
theorem last_eq (c : Dev nD) :
    Cert.ReferenceIdeal.Value.res_out0 (F := Ideal) m c = (Cert.Sage.layer2 (Cert.Sage.layer1 (Cert.Sage.layer0 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))) (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12))) (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15))) := by
  have h : Cert.ReferenceIdeal.Value.res_main_v79 (F := Ideal) m c = (Cert.Sage.hostLayer2 (Cert.Sage.hostLayer1 (Cert.Sage.hostLayer0 (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))) (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12))) (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg15))) := rfl
  refine h.trans ?_
  rw [Cert.Sage.hostLayer0_eq, Cert.Sage.hostLayer1_eq, Cert.Sage.hostLayer2_eq]

end Cert.ReferenceIdeal.Layered

end
-- ==== Proof.lean ====
/-
  The certificate of a three-layer graph convolution: a Pallas kernel program against its jnp reference.
  Both programs compute, three times over, a layer  h ↦ (mean of h over each node's in-neighbours)·Wl + (h's first rows)·Wr + b,
  cut off below at 0 after the first two layers, and return the last layer's result (twice) and the second layer's.
  The neighbour mean — gather, segment sum, count, quotient — is the same line of host operations in both programs. The kernel
  program computes each layer's dense stage in a kernel region tiled over the rows, with the operands narrowed to a 16-bit
  float format (the identity on the extended reals) and the bias reshaped to one row; the reference computes it by two host
  products and broadcasts. On the extended reals both are  (a, c) ↦ (Σ_k mean(a,k)·wl(k,c) + Σ_k root(a,k)·wr(k,c)) + b(c),
  so both programs end at the same composition of the three layers of the arguments. No entry needs to be finite: the two
  sides are the same sums in the same order, and no law of arithmetic is used beyond reading each product as a sum.
  The three frames are the generated ones (the reference's is its run with the results dropped); the idealization rewrote
  no operation, so there is nothing to preserve.
-/
import proofs.«152725_j60292750902065_1_alg».proof.Defs
import proofs.«152725_j60292750902065_1_alg».proof.Proof.Gen.Kernel
import proofs.«152725_j60292750902065_1_alg».proof.Proof.Gen.Kernel.Frame
import proofs.«152725_j60292750902065_1_alg».proof.Proof.Gen.KernelIdeal
import proofs.«152725_j60292750902065_1_alg».proof.Proof.Gen.KernelIdeal.Frame
import proofs.«152725_j60292750902065_1_alg».proof.Proof.Gen.ReferenceIdeal
import proofs.«152725_j60292750902065_1_alg».proof.Proof.Gen.ReferenceIdeal.Run
import proofs.«152725_j60292750902065_1_alg».proof.Proof.Gen.Pre_finite_inputs
import proofs.«152725_j60292750902065_1_alg».proof.Proof.KernelValue
import proofs.«152725_j60292750902065_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the arguments both programs end at the composition of the three layers of the arguments (the
    last result, returned twice) and of the first two (the middle result). -/
theorem algebraic : Cert.algebraic_KernelIdeal_ReferenceIdeal := by
  intro m ρ m' ρ' _ hagree
  refine ⟨fun c => Cert.KernelIdeal.Whole.last m c, fun c => Cert.KernelIdeal.Whole.last m c, fun c => Cert.KernelIdeal.Whole.mid m c, ?_, ?_⟩
  · exact (θ_run Cert.KernelIdeal.defs _ _).mono (fun r h c => ⟨(h c).1, (h c).1, (h c).2⟩) (Cert.KernelIdeal.Whole.run m ρ)
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15⟩ := hagree c
    have elast : Cert.ReferenceIdeal.Value.res_main_v79 (F := Ideal) m' c = Cert.KernelIdeal.Whole.last m c := by
      refine (Cert.ReferenceIdeal.Layered.last_eq m' c).trans ?_
      rw [a0, a1, a2, a3, a4, a5, a6, a7, a8, a9, a10, a11, a12, a13, a14, a15]
      rfl
    have emid : Cert.ReferenceIdeal.Value.res_main_v53 (F := Ideal) m' c = Cert.KernelIdeal.Whole.mid m c := by
      refine (Cert.ReferenceIdeal.Layered.mid_eq m' c).trans ?_
      rw [a0, a1, a2, a3, a4, a7, a8, a9, a10, a11, a12]
      rfl
    exact ⟨(h c).1.trans elast, (h c).2.1.trans elast, (h c).2.2.1.trans emid, (h c).2.2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
